-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v88)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1x128 : Shape := ⟨2, ![1, 128]⟩
abbrev S128x1 : Shape := ⟨2, ![128, 1]⟩
abbrev S128x128 : Shape := ⟨2, ![128, 128]⟩
abbrev S128x64 : Shape := ⟨2, ![128, 64]⟩
abbrev S64 : Shape := ⟨1, ![64]⟩
abbrev S64x64 : Shape := ⟨2, ![64, 64]⟩
abbrev S64x40 : Shape := ⟨2, ![64, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1x128 : S_.BroadcastsInDim S1x128 (![] : Fin 0 → Fin S1x128.rank)
  reducesTo_S1x128_S_d0_1 : S1x128.ReducesTo [0, 1] S_
  bcast_S_S128x1 : S_.BroadcastsInDim S128x1 (![] : Fin 0 → Fin S128x1.rank)
  reducesTo_S128x1_S_d0_1 : S128x1.ReducesTo [0, 1] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg8 : FVec F S64 .f32) (main_arg9 : FVec F S64x40 .f32) (main_arg10 : FVec F S40 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x40 .f32 := Host.absf main_arg9
  let main_cst_14 : FVec F S_ .f32 := constant S_ .f32 0x7F800000#32
  let main_v40 : FVec F S64x40 .f32 := broadcastInDim S64x40 ![] bcast_S_S64x40 main_cst_14
  let main_v41 : IVec S64x40 1 := cmpf .olt main_v39 main_v40
  let main_c_15 : IVec S_ 1 := constantI S_ 1 1#1
  let main_v42 : IVec S_ 1 := (fun x v => Host.reduce IntOp.andi x v reducesTo_S64x40_S_d0_1 h_S_) main_v41 main_c_15
  let main_v43 : IVec S_ 1 := andi main_v38 main_v42
  let main_v44 : FVec F S40 .f32 := Host.absf main_arg10
  let main_cst_16 : FVec F S_ .f32 := constant S_ .f32 0x7F800000#32
  let main_v45 : FVec F S40 .f32 := broadcastInDim S40 ![] bcast_S_S40 main_cst_16
  let main_v46 : IVec S40 1 := cmpf .olt main_v44 main_v45
  let main_c_17 : IVec S_ 1 := constantI S_ 1 1#1
  let main_v47 : IVec S_ 1 := (fun x v => Host.reduce IntOp.andi x v reducesTo_S40_S_d0 h_S_) main_v46 main_c_17
  let main_v48 : IVec S_ 1 := andi main_v43 main_v47
  main_v48

def fn_part1 {F : FTy → Type} [FloatOps F] (main_arg5 : FVec F S128x64 .f32) (main_arg6 : FVec F S64 .f32) (main_arg7 : FVec F S64x64 .f32) (main_arg8 : FVec F S64 .f32) (main_arg9 : FVec F S64x40 .f32) (main_arg10 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x128 .f32) (main_arg1 : IVec S2x1600000 32) (main_arg2 : FVec F S1x128 .f32) (main_arg3 : FVec F S128x1 .f32) (main_arg4 : FVec F S128x128 .f32) (main_arg5 : FVec F S128x64 .f32) (main_arg6 : FVec F S64 .f32) (main_arg7 : FVec F S64x64 .f32) (main_arg8 : FVec F S64 .f32) (main_arg9 : FVec F S64x40 .f32) (main_arg10 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1x128 .f32 := Host.absf main_arg2
  let main_cst_0 : FVec F S_ .f32 := constant S_ .f32 0x7F800000#32
  let main_v5 : FVec F S1x128 .f32 := broadcastInDim S1x128 ![] bcast_S_S1x128 main_cst_0
  let main_v6 : IVec S1x128 1 := cmpf .olt main_v4 main_v5
  let main_c_1 : IVec S_ 1 := constantI S_ 1 1#1
  let main_v7 : IVec S_ 1 := (fun x v => Host.reduce IntOp.andi x v reducesTo_S1x128_S_d0_1 h_S_) main_v6 main_c_1
  let main_v8 : IVec S_ 1 := andi main_v3 main_v7
  let main_v9 : FVec F S128x1 .f32 := Host.absf main_arg3
  let main_cst_2 : FVec F S_ .f32 := constant S_ .f32 0x7F800000#32
  let main_v10 : FVec F S128x1 .f32 := broadcastInDim S128x1 ![] bcast_S_S128x1 main_cst_2
  let main_v11 : IVec S128x1 1 := cmpf .olt main_v9 main_v10
  let main_c_3 : IVec S_ 1 := constantI S_ 1 1#1
  let main_v12 : IVec S_ 1 := (fun x v => Host.reduce IntOp.andi x v reducesTo_S128x1_S_d0_1 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S1x128 : Shape := ⟨2, ![1, 128]⟩
abbrev S128x1 : Shape := ⟨2, ![128, 1]⟩
abbrev S128x128 : Shape := ⟨2, ![128, 128]⟩
abbrev S128x64 : Shape := ⟨2, ![128, 64]⟩
abbrev S64 : Shape := ⟨1, ![64]⟩
abbrev S64x64 : Shape := ⟨2, ![64, 64]⟩
abbrev S64x40 : Shape := ⟨2, ![64, 40]⟩
abbrev S40 : Shape := ⟨1, ![40]⟩
abbrev S1x1600000 : Shape := ⟨2, ![1, 1600000]⟩
abbrev S1600000 : Shape := ⟨1, ![1600000]⟩
abbrev S5000x128 : Shape := ⟨2, ![5000, 128]⟩
abbrev S100000x64 : Shape := ⟨2, ![100000, 64]⟩
abbrev S5000x64 : Shape := ⟨2, ![5000, 64]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S5000x1 : Shape := ⟨2, ![5000, 1]⟩
abbrev S1x40 : Shape := ⟨2, ![1, 40]⟩
abbrev S100000x40 : Shape := ⟨2, ![100000, 40]⟩
abbrev S5000x40 : Shape := ⟨2, ![5000, 40]⟩
abbrev S5000 : Shape := ⟨1, ![5000]⟩

abbrev nBuf : Space → Nat
  | .hbm => 120
  | .vmem => 47
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1x128, .f32⟩
  | .hbm, ⟨3, _⟩ => ⟨S128x1, .f32⟩
  | .hbm, ⟨4, _⟩ => ⟨S128x128, .f32⟩
  | .hbm, ⟨5, _⟩ => ⟨S128x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x40, .f32⟩
  | .hbm, ⟨10, _⟩ => ⟨S40, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S128x128, .f32⟩
  | .hbm, ⟨16, _⟩ => ⟨S100000x128, .f32⟩
  | .hbm, ⟨17, _⟩ => ⟨S100000x64, .f32⟩
  | .hbm, ⟨18, _⟩ => ⟨S_, .f32⟩
  | .hbm, ⟨19, _⟩ => ⟨S1600000, .f32⟩
  | .hbm, ⟨20, _⟩ => ⟨S_, .f32⟩
  | .hbm, ⟨21, _⟩ => ⟨S100000, .f32⟩
  | .hbm, ⟨22, _⟩ => ⟨S1600000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000, .f32⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000, .f32⟩
  | .hbm, ⟨46, _⟩ => ⟨S1600000, .f32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1600000x64, .f32⟩
  | .hbm, ⟨56, _⟩ => ⟨S1600000x1, .f32⟩
  | .hbm, ⟨57, _⟩ => ⟨S1600000x64, .f32⟩
  | .hbm, ⟨58, _⟩ => ⟨S1600000x64, .f32⟩
  | .hbm, ⟨59, _⟩ => ⟨S_, .f32⟩
  | .hbm, ⟨60, _⟩ => ⟨S100000x64, .f32⟩
  | .hbm, ⟨61, _⟩ => ⟨S1600000x1, .i32⟩
  | .hbm, ⟨62, _⟩ => ⟨S100000x64, .f32⟩
  | .hbm, ⟨63, _⟩ => ⟨S100000, .f32⟩
  | .hbm, ⟨64, _⟩ => ⟨S100000x1, .f32⟩
  | .hbm, ⟨65, _⟩ => ⟨S1x64, .f32⟩
  | .hbm, ⟨66, _⟩ => ⟨S100000x64, .f32⟩
  | .hbm, ⟨67, _⟩ => ⟨S100000x64, .f32⟩
  | .hbm, ⟨68, _⟩ => ⟨S_, .f32⟩
  | .hbm, ⟨69, _⟩ => ⟨S1600000, .f32⟩
  | .hbm, ⟨70, _⟩ => ⟨S_, .f32⟩
  | .hbm, ⟨71, _⟩ => ⟨S100000, .f32⟩
  | .hbm, ⟨72, _⟩ => ⟨S1600000x1, .i32⟩
  | .hbm, ⟨73, _⟩ => ⟨S100000, .f32⟩
  | .hbm, ⟨74, _⟩ => ⟨S_, .f32⟩
  | .hbm, ⟨75, _⟩ => ⟨S100000, .f32⟩
  | .hbm, ⟨76, _⟩ => ⟨S100000, .f32⟩
  | .hbm, ⟨77, _⟩ => ⟨S100000, .f32⟩
  | .hbm, ⟨78, _⟩ => ⟨S_, .i32⟩
  | .hbm, ⟨79, _⟩ => ⟨S1600000, .i32⟩
  | .hbm, ⟨80, _⟩ => ⟨S1600000, .i1⟩
  | .hbm, ⟨81, _⟩ => ⟨S_, .i32⟩
  | .hbm, ⟨82, _⟩ => ⟨S1600000, .i32⟩
  | .hbm, ⟨83, _⟩ => ⟨S1600000, .i32⟩
  | .hbm, ⟨84, _⟩ => ⟨S1600000, .i32⟩
  | .hbm, ⟨85, _⟩ => ⟨S1600000x1, .i32⟩
  | .hbm, ⟨86, _⟩ => ⟨S1600000, .f32⟩
  | .hbm, ⟨87, _⟩ => ⟨S_, .i32⟩
  | .hbm, ⟨88, _⟩ => ⟨S1600000, .i32⟩
  | .hbm, ⟨89, _⟩ => ⟨S1600000, .i1⟩
  | .hbm, ⟨90, _⟩ => ⟨S_, .i32⟩
  | .hbm, ⟨91, _⟩ => ⟨S1600000, .i32⟩
  | .hbm, ⟨92, _⟩ => ⟨S1600000, .i32⟩
  | .hbm, ⟨93, _⟩ => ⟨S1600000, .i32⟩
  | .hbm, ⟨94, _⟩ => ⟨S1600000x1, .i32⟩
  | .hbm, ⟨95, _⟩ => ⟨S1600000, .f32⟩
  | .hbm, ⟨96, _⟩ => ⟨S1600000, .f32⟩
  | .hbm, ⟨97, _⟩ => ⟨S_, .i32⟩
  | .hbm, ⟨98, _⟩ => ⟨S1600000, .i32⟩
  | .hbm, ⟨99, _⟩ => ⟨S1600000, .i1⟩
  | .hbm, ⟨100, _⟩ => ⟨S_, .i32⟩
  | .hbm, ⟨101, _⟩ => ⟨S1600000, .i32⟩
  | .hbm, ⟨102, _⟩ => ⟨S1600000, .i32⟩
  | .hbm, ⟨103, _⟩ => ⟨S1600000, .i32⟩
  | .hbm, ⟨104, _⟩ => ⟨S1600000x1, .i32⟩
  | .hbm, ⟨105, _⟩ => ⟨S1600000x64, .f32⟩
  | .hbm, ⟨106, _⟩ => ⟨S1600000x1, .f32⟩
  | .hbm, ⟨107, _⟩ => ⟨S1600000x64, .f32⟩
  | .hbm, ⟨108, _⟩ => ⟨S1600000x64, .f32⟩
  | .hbm, ⟨109, _⟩ => ⟨S_, .f32⟩
  | .hbm, ⟨110, _⟩ => ⟨S100000x64, .f32⟩
  | .hbm, ⟨111, _⟩ => ⟨S1600000x1, .i32⟩
  | .hbm, ⟨112, _⟩ => ⟨S100000x64, .f32⟩
  | .hbm, ⟨113, _⟩ => ⟨S100000, .f32⟩
  | .hbm, ⟨114, _⟩ => ⟨S100000x1, .f32⟩
  | .hbm, ⟨115, _⟩ => ⟨S1x64, .f32⟩
  | .hbm, ⟨116, _⟩ => ⟨S100000x64, .f32⟩
  | .hbm, ⟨117, _⟩ => ⟨S1x40, .f32⟩
  | .hbm, ⟨118, _⟩ => ⟨S100000x40, .f32⟩
  | .hbm, ⟨119, _⟩ => ⟨S100000x40, .f32⟩
  | .local _ .vmem, ⟨0, _⟩ => ⟨S128x1, .f32⟩
  | .local _ .vmem, ⟨1, _⟩ => ⟨S1x128, .f32⟩
  | .local _ .vmem, ⟨2, _⟩ => ⟨S128x128, .f32⟩
  | .local _ .vmem, ⟨3, _⟩ => ⟨S128x128, .f32⟩
  | .local _ .vmem, ⟨4, _⟩ => ⟨S5000x128, .f32⟩
  | .local _ .vmem, ⟨5, _⟩ => ⟨S5000x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S128x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x1, .f32⟩
  | .local _ .vmem, ⟨19, _⟩ => ⟨S5000x1, .f32⟩
  | .local _ .vmem, ⟨20, _⟩ => ⟨S1x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S64x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S5000x1, .f32⟩
  | .local _ .vmem, ⟨33, _⟩ => ⟨S5000x1, .f32⟩
  | .local _ .vmem, ⟨34, _⟩ => ⟨S1x64, .f32⟩
  | .local _ .vmem, ⟨35, _⟩ => ⟨S5000x64, .f32⟩
  | .local _ .vmem, ⟨36, _⟩ => ⟨S5000x64, .f32⟩
  | .local _ .vmem, ⟨37, _⟩ => ⟨S5000x64, .f32⟩
  | .local _ .vmem, ⟨38, _⟩ => ⟨S5000x64, .f32⟩
  | .local _ .vmem, ⟨39, _⟩ => ⟨S64x40, .f32⟩
  | .local _ .vmem, ⟨40, _⟩ => ⟨S1x40, .f32⟩
  | .local _ .vmem, ⟨41, _⟩ => ⟨S5000x40, .f32⟩
  | .local _ .vmem, ⟨42, _⟩ => ⟨S5000x40, .f32⟩
  | .local _ .vmem, ⟨43, _⟩ => ⟨S5000x40, .f32⟩
  | .local _ .vmem, ⟨44, _⟩ => ⟨S5000x40, .f32⟩
  | .local _ .vmem, ⟨45, _⟩ => ⟨S5000x40, .f32⟩
  | .local _ .vmem, ⟨46, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c : Ref sig .tc := ⟨.hbm, 28, rfl⟩
abbrev main_v14 : Ref sig .tc := ⟨.hbm, 29, rfl⟩
abbrev main_v15 : Ref sig .tc := ⟨.hbm, 30, rfl⟩
abbrev main_c_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_5 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_7 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_8 : Ref sig .tc := ⟨.hbm, 68, rfl⟩
abbrev main_v47 : Ref sig .tc := ⟨.hbm, 69, rfl⟩
abbrev main_cst_9 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_10 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_c_11 : Ref sig .tc := ⟨.hbm, 78, rfl⟩
abbrev main_v54 : Ref sig .tc := ⟨.hbm, 79, rfl⟩
abbrev main_v55 : Ref sig .tc := ⟨.hbm, 80, rfl⟩
abbrev main_c_12 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_c_13 : Ref sig .tc := ⟨.hbm, 87, rfl⟩
abbrev main_v61 : Ref sig .tc := ⟨.hbm, 88, rfl⟩
abbrev main_v62 : Ref sig .tc := ⟨.hbm, 89, rfl⟩
abbrev main_c_14 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_c_15 : Ref sig .tc := ⟨.hbm, 97, rfl⟩
abbrev main_v69 : Ref sig .tc := ⟨.hbm, 98, rfl⟩
abbrev main_v70 : Ref sig .tc := ⟨.hbm, 99, rfl⟩
abbrev main_c_16 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_cst_17 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg2_1 : Ref sig .tc := ⟨.vmem, 13, rfl⟩
abbrev cc3_stg0_0 : Ref sig .tc := ⟨.vmem, 14, rfl⟩
abbrev cc3_stg0_1 : Ref sig .tc := ⟨.vmem, 15, rfl⟩
abbrev cc3_stg1_0 : Ref sig .tc := ⟨.vmem, 16, rfl⟩
abbrev cc3_stg1_1 : Ref sig .tc := ⟨.vmem, 17, rfl⟩
abbrev cc3_stg2_0 : Ref sig .tc := ⟨.vmem, 18, rfl⟩
abbrev cc3_stg2_1 : Ref sig .tc := ⟨.vmem, 19, rfl⟩
abbrev cc3_stg3_0 : Ref sig .tc := ⟨.vmem, 20, rfl⟩
abbrev cc3_stg4_0 : Ref sig .tc := ⟨.vmem, 21, rfl⟩
abbrev cc3_stg4_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg2_1 : Ref sig .tc := ⟨.vmem, 27, rfl⟩
abbrev cc5_stg0_0 : Ref sig .tc := ⟨.vmem, 28, rfl⟩
abbrev cc5_stg0_1 : Ref sig .tc := ⟨.vmem, 29, rfl⟩
abbrev cc5_stg1_0 : Ref sig .tc := ⟨.vmem, 30, rfl⟩
abbrev cc5_stg1_1 : Ref sig .tc := ⟨.vmem, 31, rfl⟩
abbrev cc5_stg2_0 : Ref sig .tc := ⟨.vmem, 32, rfl⟩
abbrev cc5_stg2_1 : Ref sig .tc := ⟨.vmem, 33, rfl⟩
abbrev cc5_stg3_0 : Ref sig .tc := ⟨.vmem, 34, rfl⟩
abbrev cc5_stg4_0 : Ref sig .tc := ⟨.vmem, 35, rfl⟩
abbrev cc5_stg4_1 : Ref sig .tc := ⟨.vmem, 36, rfl⟩
abbrev cc6_stg0_0 : Ref sig .tc := ⟨.vmem, 37, rfl⟩
abbrev cc6_stg0_1 : Ref sig .tc := ⟨.vmem, 38, rfl⟩
abbrev cc6_stg1_0 : Ref sig .tc := ⟨.vmem, 39, rfl⟩
abbrev cc6_stg2_0 : Ref sig .tc := ⟨.vmem, 40, rfl⟩
abbrev cc6_stg3_0 : Ref sig .tc := ⟨.vmem, 41, rfl⟩
abbrev cc6_stg3_1 : Ref sig .tc := ⟨.vmem, 42, rfl⟩
abbrev cc7_stg0_0 : Ref sig .tc := ⟨.vmem, 43, rfl⟩
abbrev cc7_stg0_1 : Ref sig .tc := ⟨.vmem, 44, rfl⟩
abbrev cc7_stg1_0 : Ref sig .tc := ⟨.vmem, 45, rfl⟩
abbrev cc7_stg1_1 : Ref sig .tc := ⟨.vmem, 46, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem2_1 : DmaSem sig := 13
abbrev cc3_sem0_0 : DmaSem sig := 14
abbrev cc3_sem0_1 : DmaSem sig := 15
abbrev cc3_sem1_0 : DmaSem sig := 16
abbrev cc3_sem1_1 : DmaSem sig := 17
abbrev cc3_sem2_0 : DmaSem sig := 18
abbrev cc3_sem2_1 : DmaSem sig := 19
abbrev cc3_sem3_0 : DmaSem sig := 20
abbrev cc3_sem4_0 : DmaSem sig := 21
abbrev cc3_sem4_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem2_1 : DmaSem sig := 27
abbrev cc5_sem0_0 : DmaSem sig := 28
abbrev cc5_sem0_1 : DmaSem sig := 29
abbrev cc5_sem1_0 : DmaSem sig := 30
abbrev cc5_sem1_1 : DmaSem sig := 31
abbrev cc5_sem2_0 : DmaSem sig := 32
abbrev cc5_sem2_1 : DmaSem sig := 33
abbrev cc5_sem3_0 : DmaSem sig := 34
abbrev cc5_sem4_0 : DmaSem sig := 35
abbrev cc5_sem4_1 : DmaSem sig := 36
abbrev cc6_sem0_0 : DmaSem sig := 37
abbrev cc6_sem0_1 : DmaSem sig := 38
abbrev cc6_sem1_0 : DmaSem sig := 39
abbrev cc6_sem2_0 : DmaSem sig := 40
abbrev cc6_sem3_0 : DmaSem sig := 41
abbrev cc6_sem3_1 : DmaSem sig := 42
abbrev cc7_sem0_0 : DmaSem sig := 43
abbrev cc7_sem0_1 : DmaSem sig := 44
abbrev cc7_sem1_0 : DmaSem sig := 45
abbrev cc7_sem1_1 : DmaSem sig := 46

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x40 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x40 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x40 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x40 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x40 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S128x1_S128x1_0_0 : ∀ a, (![0, 0] : Fin 2 → Nat) a + S128x1.size a ≤ S128x1.size a
  h_S128x1 : 0 < S128x1.numel
  inb_S1x128_S1x128_0_0 : ∀ a, (![0, 0] : Fin 2 → Nat) a + S1x128.size a ≤ S1x128.size a
  h_S1x128 : 0 < S1x128.numel
  inb_S128x128_S128x128_0_0 : ∀ a, (![0, 0] : Fin 2 → Nat) a + S128x128.size a ≤ S128x128.size a
  h_S128x128 : 0 < S128x128.numel
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S128x128_S128x128 : S128x128.ShapeCasts S128x128
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  shapeCasts_S64_S1x64 : S64.ShapeCasts S1x64
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  shapeCasts_S40_S1x40 : S40.ShapeCasts S1x40
  inb_S64x40_S64x40_0_0 : ∀ a, (![0, 0] : Fin 2 → Nat) a + S64x40.size a ≤ S64x40.size a
  h_S64x40 : 0 < S64x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  inb_S5000x40_S5000x40_0_0 : ∀ a, (![0, 0] : Fin 2 → Nat) a + S5000x40.size a ≤ S5000x40.size a
  h_S5000x40 : 0 < S5000x40.numel
  shapeCasts_S5000x40_S5000x40 : S5000x40.ShapeCasts S5000x40
  reduces_S5000x40_S5000 : S5000x40.Reduces [1] S5000
  shapeCasts_S5000_S5000x1 : S5000.ShapeCasts S5000x1
  broadcasts_S5000x1_S5000x40 : S5000x1.Broadcasts S5000x40
  dot_S128x1_S1x128_S128x128_1_0_0_1_n_n_wf : DotDims.WF S128x1 S1x128 S128x128 [1] [0] [0] [1] [] []
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  dot_S5000x64_S64x40_S5000x40_1_0_0_1_n_n_wf : DotDims.WF S5000x64 S64x40 S5000x40 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x1.size a ≤ S128x1.size a
  hwx0_0 : ∀ i : grid0.Coords, EltTy.bits .f32 = 32 ∨ (Rect.block (s := S128x1) S128x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S100000x64.size a
  hwx3_4 : ∀ i : grid3.Coords, EltTy.bits .f32 = 32 ∨ (Rect.block (s := S100000x64) S5000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S100000x64.size a
  hwx4_2 : ∀ i : grid4.Coords, EltTy.bits .f32 = 32 ∨ (Rect.block (s := S100000x64) S5000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x64.size a ≤ S100000x64.size a
  hwx5_1 : ∀ i : grid5.Coords, EltTy.bits .f32 = 32 ∨ (Rect.block (s := S100000x64) S5000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S100000x1.size a
  hwx5_2 : ∀ i : grid5.Coords, EltTy.bits .f32 = 32 ∨ (Rect.block (s := S100000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x64.size a ≤ S100000x64.size a
  hwx5_4 : ∀ i : grid5.Coords, EltTy.bits .f32 = 32 ∨ (Rect.block (s := S100000x64) S5000x64.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S100000x64.size a
  hwx6_0 : ∀ i : grid6.Coords, EltTy.bits .f32 = 32 ∨ (Rect.block (s := S100000x64) S5000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x40.size a ≤ S64x40.size a
  hwx6_1 : ∀ i : grid6.Coords, EltTy.bits .f32 = 32 ∨ (Rect.block (s := S64x40) S64x40.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x40.size a ≤ S1x40.size a
  hwx6_2 : ∀ i : grid6.Coords, EltTy.bits .f32 = 32 ∨ (Rect.block (s := S1x40) S1x40.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x40.size a ≤ S100000x40.size a
  hwx6_3 : ∀ i : grid6.Coords, EltTy.bits .f32 = 32 ∨ (Rect.block (s := S100000x40) S5000x40.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x40.size a ≤ S100000x40.size a
  hwx7_0 : ∀ i : grid7.Coords, EltTy.bits .f32 = 32 ∨ (Rect.block (s := S100000x40) S5000x40.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x40.size a ≤ S100000x40.size a
  hwx7_1 : ∀ i : grid7.Coords, EltTy.bits .f32 = 32 ∨ (Rect.block (s := S100000x40) S5000x40.size (cc7_transform_1 i) (hinb7_1 i)).WholeWords (EltTy.packing .f32)

variable [Facts₀]

def dot_S128x1_S1x128_S128x128_1_0_0_1_n_n : DotDims S128x1 S1x128 S128x128 where
  lhsContracting := [1]
  rhsContracting := [0]
  lhsNonContracting := [0]
  rhsNonContracting := [1]
  lhsBatch := []
  rhsBatch := []
  wf := dot_S128x1_S1x128_S128x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x40_S5000x40_1_0_0_1_n_n : DotDims S5000x64 S64x40 S5000x40 where
  lhsContracting := [1]
  rhsContracting := [0]
  lhsNonContracting := [0]
  rhsNonContracting := [1]
  lhsBatch := []
  rhsBatch := []
  wf := dot_S5000x64_S64x40_S5000x40_1_0_0_1_n_n_wf

abbrev win0_0 : Pipeline.Window sig grid0 :=
  Pipeline.Window.ofSpec (Memref.whole main_arg3) S128x1.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S128x128.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v5) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v6) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v41) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v6) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v43) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v44) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v45) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v45) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v46) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v81) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v46) S5000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v83) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v84) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v85) S5000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v85) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg9) S64x40.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v86) S1x40.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v87) S5000x40.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v87) S5000x40.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v88) S5000x40.size cc7_transform_1 reads7_1 true false 2 stage7_1 sem7_1
    hrank7 hreads7_1 hinb7_1 nbuf7_1 (Memref.isWhole_whole _) hwx7_1 hstage7_1

abbrev win7 : Fin 2 → Pipeline.Window sig grid7 := fun | 0 => win7_0 | 1 => win7_1 | ⟨_ + 2, h⟩ => absurd h (Nat.not_lt.2 (Nat.le_add_left _ _))
abbrev spec7 : Fin 2 → Pipeline.WinSpec sig grid7.rank := fun w => (win7 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1x128 : Shape := ⟨2, ![1, 128]⟩
abbrev S128x1 : Shape := ⟨2, ![128, 1]⟩
abbrev S128x128 : Shape := ⟨2, ![128, 128]⟩
abbrev S128x64 : Shape := ⟨2, ![128, 64]⟩
abbrev S64 : Shape := ⟨1, ![64]⟩
abbrev S64x64 : Shape := ⟨2, ![64, 64]⟩
abbrev S64x40 : Shape := ⟨2, ![64, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S100000x64 : Shape := ⟨2, ![100000, 64]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S100000x40 : Shape := ⟨2, ![100000, 40]⟩
abbrev S1x40 : Shape := ⟨2, ![1, 40]⟩

abbrev nBuf : Space → Nat
  | .hbm => 154
  | .vmem => 0
  | .smem => 0
  | _ => 0

abbrev hbmTy0_0 (i : Nat) : BufTy := match i % 128 with
  | 0 => ⟨S100000x128, .f32⟩
  | 1 => ⟨S2x1600000, .i32⟩
  | 2 => ⟨S1x128, .f32⟩
  | 3 => ⟨S128x1, .f32⟩
  | 4 => ⟨S128x128, .f32⟩
  | 5 => ⟨S128x64, .f32⟩
  | 6 => ⟨S64, .f32⟩
  | 7 => ⟨S64x64, .f32⟩
  | 8 => ⟨S64, .f32⟩
  | 9 => ⟨S64x40, .f32⟩
  | 10 => ⟨S40, .f32⟩
  | 11 => ⟨S1x1600000, .i32⟩
  | 12 => ⟨S1600000, .i32⟩
  | 13 => ⟨S1x1600000, .i32⟩
  | 14 => ⟨S1600000, .i32⟩
  | 15 => ⟨S128x128, .f32⟩
  | 16 => ⟨S128x128, .f32⟩
  | 17 => ⟨S_, .f32⟩
  | 18 => ⟨S128x128, .f32⟩
  | 19 => ⟨S128x128, .f32⟩
  | 20 => ⟨S100000x128, .f32⟩
  | 21 => ⟨S100000x64, .f32⟩
  | 22 => ⟨S_, .f32⟩
  | 23 => ⟨S1600000, .f32⟩
  | 24 => ⟨S_, .f32⟩
  | 25 => ⟨S100000, .f32⟩
  | 26 => ⟨S1600000x1, .i32⟩
  | 27 => ⟨S100000, .f32⟩
  | 28 => ⟨S_, .f32⟩
  | 29 => ⟨S100000, .f32⟩
  | 30 => ⟨S100000, .f32⟩
  | 31 => ⟨S100000, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000, .f32⟩
  | 41 => ⟨S_, .i32⟩
  | 42 => ⟨S1600000, .i32⟩
  | 43 => ⟨S1600000, .i1⟩
  | 44 => ⟨S_, .i32⟩
  | 45 => ⟨S1600000, .i32⟩
  | 46 => ⟨S1600000, .i32⟩
  | 47 => ⟨S1600000, .i32⟩
  | 48 => ⟨S1600000x1, .i32⟩
  | 49 => ⟨S1600000, .f32⟩
  | 50 => ⟨S1600000, .f32⟩
  | 51 => ⟨S1600000x1, .f32⟩
  | 52 => ⟨S_, .i32⟩
  | 53 => ⟨S1600000, .i32⟩
  | 54 => ⟨S1600000, .i1⟩
  | 55 => ⟨S_, .i32⟩
  | 56 => ⟨S1600000, .i32⟩
  | 57 => ⟨S1600000, .i32⟩
  | 58 => ⟨S1600000, .i32⟩
  | 59 => ⟨S1600000x1, .i32⟩
  | 60 => ⟨S1600000x64, .f32⟩
  | 61 => ⟨S1600000x64, .f32⟩
  | 62 => ⟨S1600000x64, .f32⟩
  | 63 => ⟨S_, .f32⟩
  | 64 => ⟨S100000x64, .f32⟩
  | 65 => ⟨S1600000x1, .i32⟩
  | 66 => ⟨S100000x64, .f32⟩
  | 67 => ⟨S100000, .f32⟩
  | 68 => ⟨S100000x1, .f32⟩
  | 69 => ⟨S100000x64, .f32⟩
  | 70 => ⟨S100000x64, .f32⟩
  | 71 => ⟨S100000x64, .f32⟩
  | 72 => ⟨S1x64, .f32⟩
  | 73 => ⟨S100000x64, .f32⟩
  | 74 => ⟨S100000x64, .f32⟩
  | 75 => ⟨S_, .f32⟩
  | 76 => ⟨S100000x64, .f32⟩
  | 77 => ⟨S100000x64, .f32⟩
  | 78 => ⟨S100000x64, .f32⟩
  | 79 => ⟨S_, .f32⟩
  | 80 => ⟨S1600000, .f32⟩
  | 81 => ⟨S_, .f32⟩
  | 82 => ⟨S100000, .f32⟩
  | 83 => ⟨S1600000x1, .i32⟩
  | 84 => ⟨S100000, .f32⟩
  | 85 => ⟨S_, .f32⟩
  | 86 => ⟨S100000, .f32⟩
  | 87 => ⟨S100000, .f32⟩
  | 88 => ⟨S100000, .f32⟩
  | 89 => ⟨S_, .i32⟩
  | 90 => ⟨S1600000, .i32⟩
  | 91 => ⟨S1600000, .i1⟩
  | 92 => ⟨S_, .i32⟩
  | 93 => ⟨S1600000, .i32⟩
  | 94 => ⟨S1600000, .i32⟩
  | 95 => ⟨S1600000, .i32⟩
  | 96 => ⟨S1600000x1, .i32⟩
  | 97 => ⟨S1600000, .f32⟩
  | 98 => ⟨S_, .i32⟩
  | 99 => ⟨S1600000, .i32⟩
  | 100 => ⟨S1600000, .i1⟩
  | 101 => ⟨S_, .i32⟩
  | 102 => ⟨S1600000, .i32⟩
  | 103 => ⟨S1600000, .i32⟩
  | 104 => ⟨S1600000, .i32⟩
  | 105 => ⟨S1600000x1, .i32⟩
  | 106 => ⟨S1600000, .f32⟩
  | 107 => ⟨S1600000, .f32⟩
  | 108 => ⟨S1600000x1, .f32⟩
  | 109 => ⟨S_, .i32⟩
  | 110 => ⟨S1600000, .i32⟩
  | 111 => ⟨S1600000, .i1⟩
  | 112 => ⟨S_, .i32⟩
  | 113 => ⟨S1600000, .i32⟩
  | 114 => ⟨S1600000, .i32⟩
  | 115 => ⟨S1600000, .i32⟩
  | 116 => ⟨S1600000x1, .i32⟩
  | 117 => ⟨S1600000x64, .f32⟩
  | 118 => ⟨S1600000x64, .f32⟩
  | 119 => ⟨S1600000x64, .f32⟩
  | 120 => ⟨S_, .f32⟩
  | 121 => ⟨S100000x64, .f32⟩
  | 122 => ⟨S1600000x1, .i32⟩
  | 123 => ⟨S100000x64, .f32⟩
  | 124 => ⟨S100000, .f32⟩
  | 125 => ⟨S100000x1, .f32⟩
  | 126 => ⟨S100000x64, .f32⟩
  | 127 => ⟨S100000x64, .f32⟩
  | _ => ⟨S100000x128, .f32⟩

abbrev hbmTy0_1 (i : Nat) : BufTy := match i % 128 with
  | 0 => ⟨S100000x64, .f32⟩
  | 1 => ⟨S1x64, .f32⟩
  | 2 => ⟨S100000x64, .f32⟩
  | 3 => ⟨S100000x64, .f32⟩
  | 4 => ⟨S_, .f32⟩
  | 5 => ⟨S100000x64, .f32⟩
  | 6 => ⟨S100000x64, .f32⟩
  | 7 => ⟨S100000x40, .f32⟩
  | 8 => ⟨S1x40, .f32⟩
  | 9 => ⟨S100000x40, .f32⟩
  | 10 => ⟨S100000x40, .f32⟩
  | 11 => ⟨S_, .f32⟩
  | 12 => ⟨S100000, .f32⟩
  | 13 => ⟨S_, .f32⟩
  | 14 => ⟨S100000, .f32⟩
  | 15 => ⟨S100000, .f32⟩
  | 16 => ⟨S100000x1, .f32⟩
  | 17 => ⟨S100000x40, .f32⟩
  | 18 => ⟨S100000x40, .f32⟩
  | 19 => ⟨S100000x40, .f32⟩
  | 20 => ⟨S_, .f32⟩
  | 21 => ⟨S100000, .f32⟩
  | 22 => ⟨S100000x1, .f32⟩
  | 23 => ⟨S100000x1, .f32⟩
  | 24 => ⟨S100000x40, .f32⟩
  | 25 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_call0_cst : Ref sig .tc := ⟨.hbm, 17, rfl⟩
abbrev main_call0_v0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_3 : Ref sig .tc := ⟨.hbm, 41, rfl⟩
abbrev main_v23 : Ref sig .tc := ⟨.hbm, 42, rfl⟩
abbrev main_v24 : Ref sig .tc := ⟨.hbm, 43, rfl⟩
abbrev main_c_4 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_5 : Ref sig .tc := ⟨.hbm, 52, rfl⟩
abbrev main_v32 : Ref sig .tc := ⟨.hbm, 53, rfl⟩
abbrev main_v33 : Ref sig .tc := ⟨.hbm, 54, rfl⟩
abbrev main_c_6 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_7 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_call1_cst : Ref sig .tc := ⟨.hbm, 75, rfl⟩
abbrev main_call1_v0 : Ref sig .tc := ⟨.hbm, 76, rfl⟩
abbrev main_v52 : Ref sig .tc := ⟨.hbm, 77, rfl⟩
abbrev main_v53 : Ref sig .tc := ⟨.hbm, 78, rfl⟩
abbrev main_cst_8 : Ref sig .tc := ⟨.hbm, 79, rfl⟩
abbrev main_v54 : Ref sig .tc := ⟨.hbm, 80, rfl⟩
abbrev main_cst_9 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_10 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_c_11 : Ref sig .tc := ⟨.hbm, 89, rfl⟩
abbrev main_v61 : Ref sig .tc := ⟨.hbm, 90, rfl⟩
abbrev main_v62 : Ref sig .tc := ⟨.hbm, 91, rfl⟩
abbrev main_c_12 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_c_13 : Ref sig .tc := ⟨.hbm, 98, rfl⟩
abbrev main_v68 : Ref sig .tc := ⟨.hbm, 99, rfl⟩
abbrev main_v69 : Ref sig .tc := ⟨.hbm, 100, rfl⟩
abbrev main_c_14 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_c_15 : Ref sig .tc := ⟨.hbm, 109, rfl⟩
abbrev main_v77 : Ref sig .tc := ⟨.hbm, 110, rfl⟩
abbrev main_v78 : Ref sig .tc := ⟨.hbm, 111, rfl⟩
abbrev main_c_16 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_cst_17 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_call2_cst : Ref sig .tc := ⟨.hbm, 132, rfl⟩
abbrev main_call2_v0 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_call3_cst : Ref sig .tc := ⟨.hbm, 139, rfl⟩
abbrev main_call3_v0 : Ref sig .tc := ⟨.hbm, 140, rfl⟩
abbrev main_call3_cst_0 : Ref sig .tc := ⟨.hbm, 141, rfl⟩
abbrev main_call3_v1 : Ref sig .tc := ⟨.hbm, 142, rfl⟩
abbrev main_call3_v2 : Ref sig .tc := ⟨.hbm, 143, rfl⟩
abbrev main_call3_v3 : Ref sig .tc := ⟨.hbm, 144, rfl⟩
abbrev main_call3_v4 : Ref sig .tc := ⟨.hbm, 145, rfl⟩
abbrev main_call3_v5 : Ref sig .tc := ⟨.hbm, 146, rfl⟩
abbrev main_call3_v6 : Ref sig .tc := ⟨.hbm, 147, rfl⟩
abbrev main_call3_cst_1 : Ref sig .tc := ⟨.hbm, 148, rfl⟩
abbrev main_call3_v7 : Ref sig .tc := ⟨.hbm, 149, rfl⟩
abbrev main_call3_v8 : Ref sig .tc := ⟨.hbm, 150, rfl⟩
abbrev main_call3_v9 : Ref sig .tc := ⟨.hbm, 151, rfl⟩
abbrev main_call3_v10 : Ref sig .tc := ⟨.hbm, 152, rfl⟩
abbrev main_v102 : Ref sig .tc := ⟨.hbm, 153, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S128x128 : S_.BroadcastsInDim S128x128 (![] : Fin 0 → Fin S128x128.rank)
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000x1_S100000x40_0_1 : S100000x1.BroadcastsInDim S100000x40 (![0, 1] : Fin 2 → Fin S100000x40.rank)
  dot_S128x1_S1x128_S128x128_1_0_0_1_n_n_wf : DotDims.WF S128x1 S1x128 S128x128 [1] [0] [0] [1] [] []
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x40_S100000x40_1_0_0_1_n_n_wf : DotDims.WF S100000x64 S64x40 S100000x40 [1] [0] [0] [1] [] []

variable [Facts₀]

def dot_S128x1_S1x128_S128x128_1_0_0_1_n_n : DotDims S128x1 S1x128 S128x128 where
  lhsContracting := [1]
  rhsContracting := [0]
  lhsNonContracting := [0]
  rhsNonContracting := [1]
  lhsBatch := []
  rhsBatch := []
  wf := dot_S128x1_S1x128_S128x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf

class Facts : Prop extends Facts₀ where

variable [Facts]
-- ==== Proof.KernelRun.lean ====
/-
  The idealized kernel's run with its result named.

  The program is eight kernel launches among stretches of host operations. Run from any memory, every weakly fair
  execution terminates without a fault; at the end the result buffer holds what the fold of the program's segments
  over the launch memory leaves there (the last boundary's contents, read at the result), and each argument array
  is as launched.
-/
import proofs.«180948_j3899830305165_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    segment boundary's contents and the argument arrays as launched. -/
theorem run_result : θ_run defs (onTc (τ := τ) (main (F := F))) ⟨m, fun _ => 0, ρ⟩ (fun r => ∀ c : Dev nD,
      r.2.mem ((c.tc : Thread nD τ).loc main_v88) = W12 m ρ c (Proc.devRef .tc main_v88)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v88 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c)⟩)

end Cert.KernelIdeal.Run

end
-- ==== Proof.Boundaries.lean ====
/-
  Buffers that a stretch of the program does not write.

  The program's segments are folded over the launch memory, boundary by boundary. A kernel launch changes only its
  own output array; a host operation changes only its own result. So an argument array read at any boundary is the
  launch contents, the two rows of the edge list cut out before the first launch are still there at the later
  stretches that read them, and a launch's output survives the host stretch that follows it.
-/
import proofs.«180948_j3899830305165_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

theorem launch_main_arg0_2 (c : Dev nD) : W2 m ρ c (Proc.devRef .tc main_arg0) = m ((c : Thread nD τ).loc main_arg0) :=
  calc W2 m ρ c (Proc.devRef .tc main_arg0)
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem launch_main_arg2_1 (c : Dev nD) : W1 m ρ c (Proc.devRef .tc main_arg2) = m ((c : Thread nD τ).loc main_arg2) :=
  calc W1 m ρ c (Proc.devRef .tc main_arg2)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem launch_main_arg3_1 (c : Dev nD) : W1 m ρ c (Proc.devRef .tc main_arg3) = m ((c : Thread nD τ).loc main_arg3) :=
  calc W1 m ρ c (Proc.devRef .tc main_arg3)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem launch_main_arg4_1 (c : Dev nD) : W1 m ρ c (Proc.devRef .tc main_arg4) = m ((c : Thread nD τ).loc main_arg4) :=
  calc W1 m ρ c (Proc.devRef .tc main_arg4)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem launch_main_arg5_3 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem launch_main_arg6_4 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem launch_main_arg7_6 (c : Dev nD) : W6 m ρ c (Proc.devRef .tc main_arg7) = m ((c : Thread nD τ).loc main_arg7) :=
  calc W6 m ρ c (Proc.devRef .tc main_arg7)
    _ = W5 m ρ c (Proc.devRef .tc main_arg7) := W6_of_ne m ρ c main_arg7 (by decide)
    _ = W4 m ρ c (Proc.devRef .tc main_arg7) := StableHlo.after_of_forall_not_mem (b := Proc.devRef .tc main_arg7) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg7) := W4_of_ne m ρ c main_arg7 (by decide)
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem launch_main_arg8_7 (c : Dev nD) : W7 m ρ c (Proc.devRef .tc main_arg8) = m ((c : Thread nD τ).loc main_arg8) :=
  calc W7 m ρ c (Proc.devRef .tc main_arg8)
    _ = W6 m ρ c (Proc.devRef .tc main_arg8) := W7_of_ne m ρ c main_arg8 (by decide)
    _ = W5 m ρ c (Proc.devRef .tc main_arg8) := W6_of_ne m ρ c main_arg8 (by decide)
    _ = W4 m ρ c (Proc.devRef .tc main_arg8) := StableHlo.after_of_forall_not_mem (b := Proc.devRef .tc main_arg8) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg8) := W4_of_ne m ρ c main_arg8 (by decide)
    _ = W2 m ρ c (Proc.devRef .tc main_arg8) := W3_of_ne m ρ c main_arg8 (by decide)
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

theorem launch_main_arg9_10 (c : Dev nD) : W10 m ρ c (Proc.devRef .tc main_arg9) = m ((c : Thread nD τ).loc main_arg9) :=
  calc W10 m ρ c (Proc.devRef .tc main_arg9)
    _ = W9 m ρ c (Proc.devRef .tc main_arg9) := StableHlo.after_of_forall_not_mem (b := Proc.devRef .tc main_arg9) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg9) := W9_of_ne m ρ c main_arg9 (by decide)
    _ = W7 m ρ c (Proc.devRef .tc main_arg9) := StableHlo.after_of_forall_not_mem (b := Proc.devRef .tc main_arg9) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg9) := W7_of_ne m ρ c main_arg9 (by decide)
    _ = W5 m ρ c (Proc.devRef .tc main_arg9) := W6_of_ne m ρ c main_arg9 (by decide)
    _ = W4 m ρ c (Proc.devRef .tc main_arg9) := StableHlo.after_of_forall_not_mem (b := Proc.devRef .tc main_arg9) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg9) := W4_of_ne m ρ c main_arg9 (by decide)
    _ = W2 m ρ c (Proc.devRef .tc main_arg9) := W3_of_ne m ρ c main_arg9 (by decide)
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

theorem launch_main_arg10_9 (c : Dev nD) : W9 m ρ c (Proc.devRef .tc main_arg10) = m ((c : Thread nD τ).loc main_arg10) :=
  calc W9 m ρ c (Proc.devRef .tc main_arg10)
    _ = W8 m ρ c (Proc.devRef .tc main_arg10) := W9_of_ne m ρ c main_arg10 (by decide)
    _ = W7 m ρ c (Proc.devRef .tc main_arg10) := StableHlo.after_of_forall_not_mem (b := Proc.devRef .tc main_arg10) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg10) := W7_of_ne m ρ c main_arg10 (by decide)
    _ = W5 m ρ c (Proc.devRef .tc main_arg10) := W6_of_ne m ρ c main_arg10 (by decide)
    _ = W4 m ρ c (Proc.devRef .tc main_arg10) := StableHlo.after_of_forall_not_mem (b := Proc.devRef .tc main_arg10) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg10) := W4_of_ne m ρ c main_arg10 (by decide)
    _ = W2 m ρ c (Proc.devRef .tc main_arg10) := W3_of_ne m ρ c main_arg10 (by decide)
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl

theorem keep_main_v1_4_1 (c : Dev nD) : W4 m ρ c (Proc.devRef .tc main_v1) = W1 m ρ c (Proc.devRef .tc main_v1) :=
  calc W4 m ρ c (Proc.devRef .tc main_v1)
    _ = W3 m ρ c (Proc.devRef .tc main_v1) := W4_of_ne m ρ c main_v1 (by decide)
    _ = W2 m ρ c (Proc.devRef .tc main_v1) := W3_of_ne m ρ c main_v1 (by decide)
    _ = W1 m ρ c (Proc.devRef .tc main_v1) := W2_of_ne m ρ c main_v1 (by decide)

theorem keep_main_v3_4_1 (c : Dev nD) : W4 m ρ c (Proc.devRef .tc main_v3) = W1 m ρ c (Proc.devRef .tc main_v3) :=
  calc W4 m ρ c (Proc.devRef .tc main_v3)
    _ = W3 m ρ c (Proc.devRef .tc main_v3) := W4_of_ne m ρ c main_v3 (by decide)
    _ = W2 m ρ c (Proc.devRef .tc main_v3) := W3_of_ne m ρ c main_v3 (by decide)
    _ = W1 m ρ c (Proc.devRef .tc main_v3) := W2_of_ne m ρ c main_v3 (by decide)

theorem keep_main_v1_7_1 (c : Dev nD) : W7 m ρ c (Proc.devRef .tc main_v1) = W1 m ρ c (Proc.devRef .tc main_v1) :=
  calc W7 m ρ c (Proc.devRef .tc main_v1)
    _ = W6 m ρ c (Proc.devRef .tc main_v1) := W7_of_ne m ρ c main_v1 (by decide)
    _ = W5 m ρ c (Proc.devRef .tc main_v1) := W6_of_ne m ρ c main_v1 (by decide)
    _ = W4 m ρ c (Proc.devRef .tc main_v1) := StableHlo.after_of_forall_not_mem (b := Proc.devRef .tc main_v1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v1) := W4_of_ne m ρ c main_v1 (by decide)
    _ = W2 m ρ c (Proc.devRef .tc main_v1) := W3_of_ne m ρ c main_v1 (by decide)
    _ = W1 m ρ c (Proc.devRef .tc main_v1) := W2_of_ne m ρ c main_v1 (by decide)

theorem keep_main_v3_7_1 (c : Dev nD) : W7 m ρ c (Proc.devRef .tc main_v3) = W1 m ρ c (Proc.devRef .tc main_v3) :=
  calc W7 m ρ c (Proc.devRef .tc main_v3)
    _ = W6 m ρ c (Proc.devRef .tc main_v3) := W7_of_ne m ρ c main_v3 (by decide)
    _ = W5 m ρ c (Proc.devRef .tc main_v3) := W6_of_ne m ρ c main_v3 (by decide)
    _ = W4 m ρ c (Proc.devRef .tc main_v3) := StableHlo.after_of_forall_not_mem (b := Proc.devRef .tc main_v3) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v3) := W4_of_ne m ρ c main_v3 (by decide)
    _ = W2 m ρ c (Proc.devRef .tc main_v3) := W3_of_ne m ρ c main_v3 (by decide)
    _ = W1 m ρ c (Proc.devRef .tc main_v3) := W2_of_ne m ρ c main_v3 (by decide)

theorem keep_main_v6_5_4 (c : Dev nD) : W5 m ρ c (Proc.devRef .tc main_v6) = W4 m ρ c (Proc.devRef .tc main_v6) :=
  calc W5 m ρ c (Proc.devRef .tc main_v6)
    _ = W4 m ρ c (Proc.devRef .tc main_v6) := StableHlo.after_of_forall_not_mem (b := Proc.devRef .tc main_v6) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_v46_8_7 (c : Dev nD) : W8 m ρ c (Proc.devRef .tc main_v46) = W7 m ρ c (Proc.devRef .tc main_v46) :=
  calc W8 m ρ c (Proc.devRef .tc main_v46)
    _ = W7 m ρ c (Proc.devRef .tc main_v46) := StableHlo.after_of_forall_not_mem (b := Proc.devRef .tc main_v46) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem keep_main_v85_10_9 (c : Dev nD) : W10 m ρ c (Proc.devRef .tc main_v85) = W9 m ρ c (Proc.devRef .tc main_v85) :=
  calc W10 m ρ c (Proc.devRef .tc main_v85)
    _ = W9 m ρ c (Proc.devRef .tc main_v85) := StableHlo.after_of_forall_not_mem (b := Proc.devRef .tc main_v85) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

end Cert.KernelIdeal.Run

end
-- ==== Proof.LayerForms.lean ====
/-
  The reference network's layers, each as one function of whole arrays over the extended reals.

  The network is: a weight table relu(w0 · E + b0); the features x times that table; two graph-convolution layers;
  a linear read-out; a row-wise log-softmax. A graph-convolution layer takes the aggregated neighbour messages
  `agg`, the transformed features `hw`, a column `d` of squared inverse-root degrees and a bias row `b`, and returns
  relu((agg + d ⊙ hw) + b), the column spread along the features and the row spread along the nodes. Everything
  here is spelt with the reference program's own operations, so that the reference's stages are these functions
  by unfolding.
-/
import proofs.«180948_j3899830305165_1_alg».proof.Proof.Gen.ReferenceIdeal
import Idealize.ShloMosaic.PureOps.Ideal

noncomputable section

namespace Cert.Bridge

open Idealize.ShloMosaic Cert.ReferenceIdeal Cert.ReferenceIdeal.Facts₀

/-- relu of a [128,128] table: the maximum with the zero table. -/
def reluTable (z : FVec Ideal S128x128 .f32) : FVec Ideal S128x128 .f32 :=
  maximumf z (broadcastInDim S128x128 ![] bcast_S_S128x128 (constant S_ .f32 0x00000000#32))

/-- The weight table relu(w0 · E + b0). -/
def weightTable (w0 : FVec Ideal S128x1 .f32) (e : FVec Ideal S1x128 .f32) (b0 : FVec Ideal S128x128 .f32) :
    FVec Ideal S128x128 .f32 :=
  reluTable (addf (Host.dotGeneral dot_S128x1_S1x128_S128x128_1_0_0_1_n_n none w0 e) b0)

/-- x · T for the [128,128] table. -/
def featTimesTable (x : FVec Ideal S100000x128 .f32) (t : FVec Ideal S128x128 .f32) : FVec Ideal S100000x128 .f32 :=
  Host.dotGeneral dot_S100000x128_S128x128_S100000x128_1_0_0_1_n_n none x t

/-- h · W1, [100000,128] by [128,64]. -/
def timesW1 (h : FVec Ideal S100000x128 .f32) (w : FVec Ideal S128x64 .f32) : FVec Ideal S100000x64 .f32 :=
  Host.dotGeneral dot_S100000x128_S128x64_S100000x64_1_0_0_1_n_n none h w

/-- h · W2, [100000,64] by [64,64]. -/
def timesW2 (h : FVec Ideal S100000x64 .f32) (w : FVec Ideal S64x64 .f32) : FVec Ideal S100000x64 .f32 :=
  Host.dotGeneral dot_S100000x64_S64x64_S100000x64_1_0_0_1_n_n none h w

/-- relu of a [100000,64] array. -/
def reluNodes (z : FVec Ideal S100000x64 .f32) : FVec Ideal S100000x64 .f32 :=
  maximumf z (broadcastInDim S100000x64 ![] bcast_S_S100000x64 (constant S_ .f32 0x00000000#32))

/-- One graph-convolution layer's combine step: relu((agg + d ⊙ hw) + b). -/
def convCombine (agg hw : FVec Ideal S100000x64 .f32) (d : FVec Ideal S100000x1 .f32) (b : FVec Ideal S1x64 .f32) :
    FVec Ideal S100000x64 .f32 :=
  reluNodes (addf (addf agg (mulf (broadcastInDim S100000x64 ![0, 1] bcast_S100000x1_S100000x64_0_1 d) hw))
    (broadcastInDim S100000x64 ![0, 1] bcast_S1x64_S100000x64_0_1 b))

/-- The read-out h · Wl + bl, the bias a [1,40] row spread along the nodes. -/
def readOut (h : FVec Ideal S100000x64 .f32) (w : FVec Ideal S64x40 .f32) (b : FVec Ideal S1x40 .f32) :
    FVec Ideal S100000x40 .f32 :=
  addf (Host.dotGeneral dot_S100000x64_S64x40_S100000x40_1_0_0_1_n_n none h w)
    (broadcastInDim S100000x40 ![0, 1] bcast_S1x40_S100000x40_0_1 b)

/-- The row maxima of the logits, as the reference computes them: the row-wise maximum from -inf, joined once more
    with -inf. -/
def rowMax (x : FVec Ideal S100000x40 .f32) : FVec Ideal S100000 .f32 :=
  maximumf (broadcastInDim S100000 ![] bcast_S_S100000 (constant S_ .f32 0xFF800000#32))
    (Host.reduce FloatOps.maximumf x (constant S_ .f32 0xFF800000#32) reducesTo_S100000x40_S100000_d1 h_S_)

/-- The logits shifted by their row maxima. -/
def shifted (x : FVec Ideal S100000x40 .f32) : FVec Ideal S100000x40 .f32 :=
  subf x (broadcastInDim S100000x40 ![0, 1] bcast_S100000x1_S100000x40_0_1
    (broadcastInDim S100000x1 ![0] bcast_S100000_S100000x1_0 (rowMax x)))

/-- Row-wise log-softmax: z - log (sum over the row of exp z), z the shifted logits. -/
def logSoftmaxRows (x : FVec Ideal S100000x40 .f32) : FVec Ideal S100000x40 .f32 :=
  subf (shifted x) (broadcastInDim S100000x40 ![0, 1] bcast_S100000x1_S100000x40_0_1
    (Host.log (broadcastInDim S100000x1 ![0] bcast_S100000_S100000x1_0
      (Host.reduceAdd (Host.exp (shifted x)) (constant S_ .f32 0x00000000#32) reducesTo_S100000x40_S100000_d1 h_S_))))

end Cert.Bridge

end
-- ==== Proof.LibPlainMatmul.lean ====
/-
  A kernel's plain matrix product read at an entry, over the extended reals.

  An [m, k] by [k, n] product accumulated into the zero block has, at entry (a, b), the sum over the contracted
  coordinate c of A (a, c) · B (c, b): the exact contraction has no accumulator left in it (the extended reals have one
  zero) and is the same sum the host's product of the same operands is.
-/
import Idealize.ShloMosaic.Lib.StackMember
import Idealize.ShloMosaic.PureOps.Ideal.Laws

noncomputable section

namespace Cert.Lib

open Idealize.ShloMosaic Idealize.ShloMosaic.ValueIdx

/-- Entry (a, b) of an [m, k] × [k, n] matrix product into a zero accumulator is `∑ c, A (a, c) · B (c, b)`. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec default A B (ix2 a b)).symm.trans
      (StackMember.dotGeneral_plain_apply prec A B a b))

end Cert.Lib

end
-- ==== Proof.LibRowBlockProduct.lean ====
/-
  A block of rows of a matrix product, over the extended reals.

  Rows off, …, off + m - 1 of X · W depend on those rows of X and on all of W only: entry (off + a, b) of the whole
  product is the sum over the contracted coordinate c of X (off + a, c) · W (c, b), and that is entry (a, b) of the product
  of the m-row block of X with W. So a kernel that multiplies one block of rows at a time (accumulating into zero) writes,
  block by block, the host's one whole product. How a block sits in its array is left to three index maps, about which
  only their coordinates are assumed: the left block's and the result block's rows are shifted by `off`, nothing else
  moves.
-/
import proofs.«180948_j3899830305165_1_alg».proof.Proof.LibPlainMatmul

noncomputable section

namespace Cert.Lib

open Idealize.ShloMosaic Idealize.ShloMosaic.ValueIdx

/-- The product of an m-row block of `X` (rows `off …`) with `W`, accumulated into zero, read at a block index `j`, is the
    whole product `X · W` read where the result block puts `j`. -/
theorem plain_product_row_block {m M k n : Nat} {φ₁ φ₂ : FTy} (prec : Option ContractPrecision)
    (x : FVec Ideal ⟨2, ![m, k]⟩ φ₁) (w : FVec Ideal ⟨2, ![k, n]⟩ φ₂)
    (X : FVec Ideal ⟨2, ![M, k]⟩ φ₁) (W : FVec Ideal ⟨2, ![k, n]⟩ φ₂)
    (ex : (⟨2, ![m, k]⟩ : Shape).Idx → (⟨2, ![M, k]⟩ : Shape).Idx)
    (ew : (⟨2, ![k, n]⟩ : Shape).Idx → (⟨2, ![k, n]⟩ : Shape).Idx)
    (eo : (⟨2, ![m, n]⟩ : Shape).Idx → (⟨2, ![M, n]⟩ : Shape).Idx) (off : Nat)
    (hx : ∀ y, x y = X (ex y)) (hw : ∀ y, w y = W (ew y))
    (hex0 : ∀ y, (ex y 0).val = off + (y 0).val) (hex1 : ∀ y, (ex y 1).val = (y 1).val)
    (hew0 : ∀ y, (ew y 0).val = (y 0).val) (hew1 : ∀ y, (ew y 1).val = (y 1).val)
    (heo0 : ∀ y, (eo y 0).val = off + (y 0).val) (heo1 : ∀ y, (eo y 1).val = (y 1).val)
    (j : (⟨2, ![m, n]⟩ : Shape).Idx) :
    matmul (DotDims.plain m k n) prec x w (constant ⟨2, ![m, n]⟩ .f32 0x00000000#32) j
      = Host.dotGeneral (DotDims.plain M k n) prec X W (eo j) := by
  obtain ⟨a, b, rfl⟩ : ∃ (a : Fin m) (b : Fin n), j = ix2 a b := ⟨j 0, j 1, eq_ix2 j⟩
  -- where the result block puts (a, b): row off + a, column b
  obtain ⟨a', b', hab⟩ : ∃ (a' : Fin M) (b' : Fin n), eo (ix2 a b) = ix2 a' b' :=
    ⟨eo (ix2 a b) 0, eo (ix2 a b) 1, eq_ix2 _⟩
  have ha' : a'.val = off + a.val := by
    have := heo0 (ix2 a b); rw [hab] at this; exact this
  have hb' : b'.val = b.val := by
    have := heo1 (ix2 a b); rw [hab] at this; exact this
  rw [matmul_plain_zero_apply, hab, StackMember.dotGeneral_plain_apply]
  refine Finset.sum_congr rfl fun c _ => ?_
  rw [hx, hw]
  have e1 : ex (ix2 a c) = ix2 a' c := by
    funext q; apply Fin.ext
    match q with
    | ⟨0, _⟩ => exact (hex0 (ix2 a c)).trans ha'.symm
    | ⟨1, _⟩ => exact hex1 (ix2 a c)
  have e2 : ew (ix2 c b) = ix2 c b' := by
    funext q; apply Fin.ext
    match q with
    | ⟨0, _⟩ => exact hew0 (ix2 c b)
    | ⟨1, _⟩ => exact (hew1 (ix2 c b)).trans hb'.symm
  rw [e1, e2]

end Cert.Lib

end
-- ==== Proof.LibRowBlockDot.lean ====
/-
  A block of rows of the host's matrix product, over the extended reals.

  A plain [m, k] by [k, n] product accumulated from zero is the host's plain product of the same operands, and that
  does not depend on the precision asked for: every one of them is, at entry (a, b), the sum over the contracted
  coordinate c of A (a, c) · B (c, b). Hence rows off, …, off + m - 1 of X · W, read where an m-row result block sits in
  the [M, n] result, are the host's product of the m-row block of X with W, read at the block's own index: a program
  that multiplies one block of rows at a time produces, block by block, the one whole product. How a block sits in its
  array is left to three index maps, about which only their coordinates are assumed.
-/
import proofs.«180948_j3899830305165_1_alg».proof.Proof.LibRowBlockProduct
import Idealize.ShloMosaic.Lib.Pipeline.Value
import Idealize.ShloMosaic.Lib.ValueIdx

noncomputable section

namespace Cert.Lib

open Idealize.ShloMosaic Idealize.ShloMosaic.ValueIdx

/-- A plain product accumulated from zero is the host's plain product of the same operands. -/
theorem matmul_zero_eq_dot {m k n : Nat} (prec : Option ContractPrecision)
    (A : FVec Ideal ⟨2, ![m, k]⟩ .f32) (B : FVec Ideal ⟨2, ![k, n]⟩ .f32) :
    matmul (DotDims.plain m k n) prec A B (constant ⟨2, ![m, n]⟩ .f32 0x00000000#32)
      = Host.dotGeneral (DotDims.plain m k n) prec A B := by
  funext j
  obtain ⟨a, b, rfl⟩ : ∃ (a : Fin m) (b : Fin n), j = ix2 a b := ⟨j 0, j 1, eq_ix2 j⟩
  rw [Cert.Lib.matmul_plain_zero_apply, StackMember.dotGeneral_plain_apply]

/-- Over the extended reals the host's plain product does not depend on the precision asked for. -/
theorem dot_prec_irrelevant {m k n : Nat} (p p' : Option ContractPrecision)
    (A : FVec Ideal ⟨2, ![m, k]⟩ .f32) (B : FVec Ideal ⟨2, ![k, n]⟩ .f32) :
    Host.dotGeneral (DotDims.plain m k n) p A B = Host.dotGeneral (DotDims.plain m k n) p' A B := by
  funext j
  obtain ⟨a, b, rfl⟩ : ∃ (a : Fin m) (b : Fin n), j = ix2 a b := ⟨j 0, j 1, eq_ix2 j⟩
  rw [StackMember.dotGeneral_plain_apply, StackMember.dotGeneral_plain_apply]

/-- The host's product of an m-row block of `X` (rows `off …`) with `W`, read at a block index, is the whole product
    `X · W` read where the result block puts the index. -/
theorem dot_block_read {m M k n : Nat} (prec : Option ContractPrecision)
    (x : FVec Ideal ⟨2, ![m, k]⟩ .f32) (w : FVec Ideal ⟨2, ![k, n]⟩ .f32)
    (X : FVec Ideal ⟨2, ![M, k]⟩ .f32) (W : FVec Ideal ⟨2, ![k, n]⟩ .f32)
    (ex : (⟨2, ![m, k]⟩ : Shape).Idx → (⟨2, ![M, k]⟩ : Shape).Idx)
    (ew : (⟨2, ![k, n]⟩ : Shape).Idx → (⟨2, ![k, n]⟩ : Shape).Idx)
    (eo : (⟨2, ![m, n]⟩ : Shape).Idx → (⟨2, ![M, n]⟩ : Shape).Idx) (off : Nat)
    (hx : ∀ y, x y = X (ex y)) (hw : ∀ y, w y = W (ew y))
    (hex0 : ∀ y, (ex y 0).val = off + (y 0).val) (hex1 : ∀ y, (ex y 1).val = (y 1).val)
    (hew0 : ∀ y, (ew y 0).val = (y 0).val) (hew1 : ∀ y, (ew y 1).val = (y 1).val)
    (heo0 : ∀ y, (eo y 0).val = off + (y 0).val) (heo1 : ∀ y, (eo y 1).val = (y 1).val)
    (j : (⟨2, ![m, n]⟩ : Shape).Idx) :
    Host.dotGeneral (DotDims.plain m k n) prec x w j = Host.dotGeneral (DotDims.plain M k n) prec X W (eo j) :=
  (congrFun (matmul_zero_eq_dot prec x w) j).symm.trans
    (Cert.Lib.plain_product_row_block prec x w X W ex ew eo off hx hw hex0 hex1 hew0 hew1 heo0 heo1 j)

/-- The origin of a two-axis block, as the constant-zero offsets. -/
theorem zero2 : (![0, 0] : Fin 2 → Nat) = fun _ => 0 := funext fun a => by fin_cases a <;> rfl

end Cert.Lib

end
-- ==== Proof.LibHostSpread.lean ====
/-
  The host's spreading operation read at an index, for the small layouts a per-row statistic and a per-column bias go
  through: a scalar spread over a whole array reads the scalar everywhere; an [a, 1] column spread over [a, b] reads, at
  (p, c), the column's entry of row p; a [1, b] row spread over [a, b] reads the row's entry of column c; a vector [a]
  spread along dimension 0 of [a, 1] reads, at (i, ·), the vector at i — and is the same array as the vector recast to
  that column.
-/
import Idealize.ShloMosaic.Lib.Pipeline.Value
import Idealize.ShloMosaic.Lib.ValueIdx
import Idealize.ShloMosaic.Lib.ValueLayout

noncomputable section

namespace Cert.Lib

open Idealize.ShloMosaic Idealize.ShloMosaic.ValueIdx

variable {α : Type}

/-- A scalar spread over an array of any shape reads the scalar at every index. -/
theorem splat_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply ![] h x j ix0 (fun a => a.elim0)

/-- An `[a, 1]` column spread over `[a, b]` (both axes kept) reads, at `(p, c)`, the column's entry of row `p`. -/
theorem spread_a1_ab_apply {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, b]` row spread over `[a, b]` (both axes kept) reads, at `(p, c)`, the row's entry of column `c`. -/
theorem spread_1b_ab_apply {a b : ℕ} (v : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[a]` spread along dimension 0 of `[a, 1]` reads, at `(i, u)`, the vector at `i`. -/
theorem spread_a_a1_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- A vector recast as a column is the vector spread along dimension 0 of the column's shape. -/
theorem shapeCast_col_eq_spread {a : ℕ} (x : (⟨1, ![a]⟩ : Shape).Idx → α)
    (h : (⟨1, ![a]⟩ : Shape).ShapeCasts ⟨2, ![a, 1]⟩)
    (h' : (⟨1, ![a]⟩ : Shape).BroadcastsInDim ⟨2, ![a, 1]⟩ (![0] : Fin 1 → Fin 2)) :
    shapeCast ⟨2, ![a, 1]⟩ x h = broadcastInDim ⟨2, ![a, 1]⟩ ![0] h' x := by
  funext j
  obtain ⟨i, u, rfl⟩ : ∃ (i : Fin a) (u : Fin 1), j = ix2 i u := ⟨j 0, j 1, eq_ix2 j⟩
  rw [spread_a_a1_apply x h' i u]
  refine shapeCast_apply x h _ _ ?_
  have hu : u.val = 0 := by omega
  rw [Shape.rowMajor_val_two, Shape.rowMajor_val_one]
  show i.val = i.val * 1 + u.val
  rw [hu, Nat.mul_one, Nat.add_zero]

end Cert.Lib

end
-- ==== Proof.LibKernelHostForms.lean ====
/-
  Three kernel-side operations and the host operations they are, as whole arrays over the extended reals.

  A kernel's matrix product of operands rounded to bf16, accumulated into zero, is the host's dot_general of the
  unrounded operands, for any dimension numbers: rounding is the identity on the extended reals and both products are
  the sum over the contracted coordinates. A [1, b] row broadcast over [a, b] by the kernel's vector broadcast is the
  host's broadcast_in_dim along dimensions [0, 1]. A scalar constant splat over an array by the kernel is the host's
  broadcast of the constant scalar.
-/
import proofs.«180948_j3899830305165_1_alg».proof.Proof.LibHostSpread
import Idealize.ShloMosaic.Lib.Pipeline.Value
import Idealize.ShloMosaic.Lib.ValueIdx
import Idealize.ShloMosaic.Lib.ValueLayout
import Idealize.ShloMosaic.PureOps.Ideal.Laws

noncomputable section

namespace Cert.Lib

open Idealize.ShloMosaic Idealize.ShloMosaic.ValueIdx

/-- A product into the zero accumulator of operands rounded to bf16 is the host's product of the operands: rounding is
    the identity on the extended reals, and both products are the sum over the contracted coordinate. -/
theorem rounded_product {sl sr so : Shape} (d : DotDims sl sr so) (prec : Option ContractPrecision)
    (a : FVec Ideal sl .f32) (b : FVec Ideal sr .f32) (h1 : FTy.bf16.bits < FTy.f32.bits) (h2 : FTy.bf16.bits < FTy.f32.bits) :
    matmul d prec (truncf .bf16 a h1) (truncf .bf16 b h2) (constant so .f32 0x00000000#32) = Host.dotGeneral d prec a b := by
  funext j
  exact (Ideal.matmul_constant_zero_apply d prec (truncf .bf16 a h1) (truncf .bf16 b h2) j).trans
    (Ideal.dotGeneral_apply d prec default a b j).symm

/-- One row spread over many rows, by the kernel's broadcast and by the host's, is the same array. -/
theorem row_spread {α : Type} {a b : ℕ} (v : (⟨2, ![1, b]⟩ : Shape).Idx → α)
    (h : (⟨2, ![1, b]⟩ : Shape).Broadcasts ⟨2, ![a, b]⟩)
    (h' : (⟨2, ![1, b]⟩ : Shape).BroadcastsInDim ⟨2, ![a, b]⟩ (![0, 1] : Fin 2 → Fin 2)) :
    broadcastTo ⟨2, ![a, b]⟩ v h = broadcastInDim ⟨2, ![a, b]⟩ ![0, 1] h' v := by
  funext j
  obtain ⟨p, q, rfl⟩ : ∃ (p : Fin a) (q : Fin b), j = ix2 p q := ⟨j 0, j 1, eq_ix2 j⟩
  rw [broadcastTo_1b_ab_apply, spread_1b_ab_apply]

/-- A scalar constant spread over an array, by the kernel's splat and by the host's, is the same array. -/
theorem zero_splat {t : Shape} (w : BitVec 32) (h : (⟨0, ![]⟩ : Shape).BroadcastsInDim t (![] : Fin 0 → Fin t.rank)) :
    (broadcast t (Scalar.ofBits (F := Ideal) .f32 w) : FVec Ideal t .f32) = broadcastInDim t ![] h (constant ⟨0, ![]⟩ .f32 w) := by
  funext j
  rw [splat_apply]
  rfl

end Cert.Lib

end
-- ==== Proof.TableRegion.lean ====
/-
  The weight table relu(w0 · E + b0): what the first kernel launch leaves.

  The launch has one grid point, and every window's block is its whole array. The body multiplies the [128,1] column
  w0 with the [1,128] row E (accumulated from zero), adds b0 and takes the maximum with a splat zero. Over the extended
  reals a product accumulated from zero is the sum over the one contracted coordinate whatever precision is asked
  for, and a splat zero is the zero table, so the table written is the reference's, entry by entry.
-/
import proofs.«180948_j3899830305165_1_alg».proof.Proof.Gen.KernelIdeal.Frame
import proofs.«180948_j3899830305165_1_alg».proof.Proof.LayerForms
import proofs.«180948_j3899830305165_1_alg».proof.Proof.LibRowBlockDot
import proofs.«180948_j3899830305165_1_alg».proof.Proof.LibKernelHostForms

set_option maxRecDepth 16384

noncomputable section

namespace Cert.Bridge

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The body's arithmetic is the reference's table of the three loaded arrays. -/
theorem pay0_eq (w0 : FVec Ideal S128x1 .f32) (e : FVec Ideal S1x128 .f32) (b0 : FVec Ideal S128x128 .f32) :
    k0_pay1 (F := Ideal) w0 e b0 = weightTable w0 e b0 := by
  unfold k0_pay1
  show maximumf (addf (matmul (DotDims.plain 128 1 128) (some .fp32) w0 e (constant S128x128 .f32 0x00000000#32)) b0)
      (broadcast S128x128 (Scalar.ofBits (F := Ideal) .f32 0x00000000#32))
    = maximumf (addf (Host.dotGeneral (DotDims.plain 128 1 128) none w0 e) b0)
      (broadcastInDim S128x128 ![] _ (constant ⟨0, ![]⟩ .f32 0x00000000#32))
  rw [Cert.Lib.matmul_zero_eq_dot (some .fp32) w0 e, Cert.Lib.dot_prec_irrelevant (some .fp32) none w0 e, Cert.Lib.zero_splat]

/-- The printed index maps at the one grid point: every block starts at the origin. -/
theorem idx_facts0 : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- Each input block is its whole array. -/
theorem blk0_0 (c : Dev nD) (t : Fin cfg0.N) : (iblk0 V c 0 t : FVec Ideal S128x1 .f32) = V c (Pipeline.arrRef spec0 0) := by
  obtain ⟨e0, e1, -, -, -, -, -, -⟩ := idx_facts0 t
  funext y
  show V c (Pipeline.arrRef spec0 0) (((cfg0.win 0).blk t).view.emb y) = V c (Pipeline.arrRef spec0 0) y
  refine congrArg _ (funext fun a => Fin.ext ?_)
  match a with
  | ⟨0, _⟩ => show win0_0.index t (0 : Fin 2) * 128 + 1 * (y 0).val = (y 0).val; omega
  | ⟨1, _⟩ => show win0_0.index t (1 : Fin 2) * 1 + 1 * (y 1).val = (y 1).val; omega

theorem blk0_1 (c : Dev nD) (t : Fin cfg0.N) : (iblk0 V c 1 t : FVec Ideal S1x128 .f32) = V c (Pipeline.arrRef spec0 1) := by
  obtain ⟨-, -, e2, e3, -, -, -, -⟩ := idx_facts0 t
  funext y
  show V c (Pipeline.arrRef spec0 1) (((cfg0.win 1).blk t).view.emb y) = V c (Pipeline.arrRef spec0 1) y
  refine congrArg _ (funext fun a => Fin.ext ?_)
  match a with
  | ⟨0, _⟩ => show win0_1.index t (0 : Fin 2) * 1 + 1 * (y 0).val = (y 0).val; omega
  | ⟨1, _⟩ => show win0_1.index t (1 : Fin 2) * 128 + 1 * (y 1).val = (y 1).val; omega

theorem blk0_2 (c : Dev nD) (t : Fin cfg0.N) : (iblk0 V c 2 t : FVec Ideal S128x128 .f32) = V c (Pipeline.arrRef spec0 2) := by
  obtain ⟨-, -, -, -, e4, e5, -, -⟩ := idx_facts0 t
  funext y
  show V c (Pipeline.arrRef spec0 2) (((cfg0.win 2).blk t).view.emb y) = V c (Pipeline.arrRef spec0 2) y
  refine congrArg _ (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- What the grid point writes back is the whole table, read through the (whole) output block. -/
theorem flushed0_eq (c : Dev nD) (t : Fin cfg0.N) :
    (dat0 V c).flushed 3 t = ((cfg0.win 3).blk t).view.read (Elt Ideal)
      (weightTable (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero Cert.Lib.zero2]
  simp only [View.ld_unit_zero (S := S128x1) Cert.Lib.zero2, View.ld_unit_zero (S := S1x128) Cert.Lib.zero2, View.ld_unit_zero (S := S128x128) Cert.Lib.zero2]
  rw [pay0_eq (iblk0 V c 0 t) (iblk0 V c 1 t) (iblk0 V c 2 t), blk0_0 V c t, blk0_1 V c t, blk0_2 V c t]
  obtain ⟨-, -, -, -, -, -, e6, e7⟩ := idx_facts0 t
  funext j
  show weightTable (V c (Pipeline.arrRef spec0 0)) (V c (Pipeline.arrRef spec0 1)) (V c (Pipeline.arrRef spec0 2)) j
    = weightTable (V c (Pipeline.arrRef spec0 0)) (V c (Pipeline.arrRef spec0 1)) (V c (Pipeline.arrRef spec0 2)) (((cfg0.win 3).blk t).view.emb j)
  refine congrArg _ (funext fun a => Fin.ext ?_)
  match a with
  | ⟨0, _⟩ => show (j 0).val = win0_3.index t (0 : Fin 2) * 128 + 1 * (j 0).val; omega
  | ⟨1, _⟩ => show (j 1).val = win0_3.index t (1 : Fin 2) * 128 + 1 * (j 1).val; omega

/-- An index of the table is in the one block iff each coordinate is in the block's range. -/
theorem mem_blk0 (t : Fin cfg0.N) (i : S128x128.Idx) :
    i ∈ ((cfg0.win 3).blk t).view.set ↔ ∀ a : Fin 2, win0_3.index t a * S128x128.size a ≤ (i a).val ∧ (i a).val < win0_3.index t a * S128x128.size a + S128x128.size a := by
  show i ∈ ((View.whole main_v4).slice (win0_3.rect t)).set ↔ _
  rw [View.set_slice_whole, Rect.mem_set_unit]
  exact Iff.rfl

theorem cover0 (i : S128x128.Idx) :
    ∃ t : Fin cfg0.N, (cfg0.win 3).flush t = true ∧ i ∈ ((cfg0.win 3).blk t).view.set := by
  have hi0 : (i 0).val < 128 := (i 0).isLt
  have hi1 : (i 1).val < 128 := (i 1).isLt
  have hN : cfg0.N = 1 := N_0
  obtain ⟨t, ht⟩ : ∃ t : Fin cfg0.N, t.val = 0 := ⟨⟨0, by rw [hN]; omega⟩, rfl⟩
  obtain ⟨-, -, -, -, -, -, e6, e7⟩ := idx_facts0 t
  refine ⟨t, flush0_3 t, ?_⟩
  rw [mem_blk0]
  intro a
  match a with
  | ⟨0, _⟩ => show win0_3.index t (0 : Fin 2) * 128 ≤ (i 0).val ∧ (i 0).val < win0_3.index t (0 : Fin 2) * 128 + 128; omega
  | ⟨1, _⟩ => show win0_3.index t (1 : Fin 2) * 128 ≤ (i 1).val ∧ (i 1).val < win0_3.index t (1 : Fin 2) * 128 + 128; omega

/-- The array the first launch leaves is the reference's weight table of the three arrays it found. -/
theorem table_region (c : Dev nD) :
    (dat0 V c).arrAt 3 cfg0.N
      = weightTable (V c (Pipeline.arrRef spec0 0)) (V c (Pipeline.arrRef spec0 1)) (V c (Pipeline.arrRef spec0 2)) :=
  (dat0 V c).arrAt_eq_of_cover 3 _ (fun t _ => flushed0_eq V c t) (cover0)

end Cert.Bridge

end
-- ==== Proof.DotRegion1.lean ====
/-
  The features times the weight table: the second kernel launch leaves x · T.

  At every grid point t the kernel loads rows 5000·t … 5000·t + 4999 of the left array and the whole right matrix,
  multiplies them (operands rounded to bf16, which is the identity on the extended reals; accumulated from zero) and
  writes the 5000 result rows back to the same rows of the output. Entry (5000·t + p, q) of the whole product depends
  on row 5000·t + p of the left array only, so each written block is that block of rows of the one whole product, and
  the twenty blocks tile the output's rows.
-/
import proofs.«180948_j3899830305165_1_alg».proof.Proof.Gen.KernelIdeal.Frame
import proofs.«180948_j3899830305165_1_alg».proof.Proof.LayerForms
import proofs.«180948_j3899830305165_1_alg».proof.Proof.LibRowBlockDot
import proofs.«180948_j3899830305165_1_alg».proof.Proof.LibKernelHostForms

set_option maxRecDepth 16384

noncomputable section

namespace Cert.Bridge

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The body's arithmetic is the host's product of the loaded block with the loaded matrix. -/
theorem pay1_eq (x : FVec Ideal S5000x128 .f32) (w : FVec Ideal S128x128 .f32) :
    k1_pay1 (F := Ideal) x w = Host.dotGeneral (DotDims.plain 5000 128 128) none x w := by
  unfold k1_pay1
  simp only [shapeCast_self]
  exact Cert.Lib.rounded_product (DotDims.plain 5000 128 128) none x w _ _

/-- The reference's product is the plain [100000, 128] by [128, 128] product. -/
theorem layer1_eq (X : FVec Ideal S100000x128 .f32) (W : FVec Ideal S128x128 .f32) :
    featTimesTable X W = Host.dotGeneral (DotDims.plain 100000 128 128) none X W := rfl

/-- The printed index maps, decided over the grid: the left and the result block are block t of their arrays, the
    right operand is whole. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What grid point t writes back is block t of the whole product of the arrays the region found. -/
theorem flushed1_eq (c : Dev nD) (t : Fin cfg1.N) :
    (dat1 V c).flushed 2 t = ((cfg1.win 2).blk t).view.read (Elt Ideal)
      (featTimesTable (V c (Pipeline.arrRef spec1 0)) (V c (Pipeline.arrRef spec1 1))) := by
  show (cfg1.win 2).cut (grid1.coords t) ((dat1 V c).after 2 t) = _
  rw [after1_2]
  unfold out1_2
  rw [View.canon_unit_zero Cert.Lib.zero2]
  simp only [View.ld_unit_zero (S := S5000x128) Cert.Lib.zero2, View.ld_unit_zero (S := S128x128) Cert.Lib.zero2]
  rw [pay1_eq (iblk1 V c 0 t) (iblk1 V c 1 t)]
  obtain ⟨e0, e1, e2, e3, e4, e5⟩ := idx_facts1 t
  funext j
  show Host.dotGeneral (DotDims.plain 5000 128 128) none (iblk1 V c 0 t) (iblk1 V c 1 t) j
    = featTimesTable (V c (Pipeline.arrRef spec1 0)) (V c (Pipeline.arrRef spec1 1)) (((cfg1.win 2).blk t).view.emb j)
  rw [layer1_eq (V c (Pipeline.arrRef spec1 0)) (V c (Pipeline.arrRef spec1 1))]
  refine Cert.Lib.dot_block_read (m := 5000) (M := 100000) (k := 128) (n := 128) none (iblk1 V c 0 t) (iblk1 V c 1 t)
    (V c (Pipeline.arrRef spec1 0)) (V c (Pipeline.arrRef spec1 1))
    ((cfg1.win 0).blk t).view.emb ((cfg1.win 1).blk t).view.emb ((cfg1.win 2).blk t).view.emb (t.val * 5000)
    (fun _ => rfl) (fun _ => rfl) ?_ ?_ ?_ ?_ ?_ ?_ j
  · intro y; show win1_0.index t (0 : Fin 2) * 5000 + 1 * (y 0).val = _; omega
  · intro y; show win1_0.index t (1 : Fin 2) * 128 + 1 * (y 1).val = _; omega
  · intro y; show win1_1.index t (0 : Fin 2) * 128 + 1 * (y 0).val = _; omega
  · intro y; show win1_1.index t (1 : Fin 2) * 128 + 1 * (y 1).val = _; omega
  · intro y; show win1_2.index t (0 : Fin 2) * 5000 + 1 * (y 0).val = _; omega
  · intro y; show win1_2.index t (1 : Fin 2) * 128 + 1 * (y 1).val = _; omega

/-- An index of the output array is in point t's block iff each coordinate is in the block's range on its axis. -/
theorem mem_blk1 (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v5).slice (win1_2.rect t)).set ↔ _
  rw [View.set_slice_whole, Rect.mem_set_unit]
  exact Iff.rfl

/-- Every row of the output lies in some grid point's block: row r in the block of point r / 5000. -/
theorem cover1 (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 20 := N_1
  obtain ⟨t, ht⟩ : ∃ t : Fin cfg1.N, t.val = (i 0).val / 5000 := ⟨⟨(i 0).val / 5000, by rw [hN]; omega⟩, rfl⟩
  obtain ⟨e0, e1, e2, e3, e4, e5⟩ := idx_facts1 t
  refine ⟨t, flush1_2 t, ?_⟩
  rw [mem_blk1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- The array the region leaves in its output is the whole product of the two arrays it found. -/
theorem dot_region1 (c : Dev nD) :
    (dat1 V c).arrAt 2 cfg1.N
      = featTimesTable (V c (Pipeline.arrRef spec1 0)) (V c (Pipeline.arrRef spec1 1)) :=
  (dat1 V c).arrAt_eq_of_cover 2 _ (fun t _ => flushed1_eq V c t) (cover1)

end Cert.Bridge

end
-- ==== Proof.DotRegion2.lean ====
/-
  The first layer's feature transform: the third kernel launch leaves h · W1.

  At every grid point t the kernel loads rows 5000·t … 5000·t + 4999 of the left array and the whole right matrix,
  multiplies them (operands rounded to bf16, which is the identity on the extended reals; accumulated from zero) and
  writes the 5000 result rows back to the same rows of the output. Entry (5000·t + p, q) of the whole product depends
  on row 5000·t + p of the left array only, so each written block is that block of rows of the one whole product, and
  the twenty blocks tile the output's rows.
-/
import proofs.«180948_j3899830305165_1_alg».proof.Proof.Gen.KernelIdeal.Frame
import proofs.«180948_j3899830305165_1_alg».proof.Proof.LayerForms
import proofs.«180948_j3899830305165_1_alg».proof.Proof.LibRowBlockDot
import proofs.«180948_j3899830305165_1_alg».proof.Proof.LibKernelHostForms

set_option maxRecDepth 16384

noncomputable section

namespace Cert.Bridge

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The body's arithmetic is the host's product of the loaded block with the loaded matrix. -/
theorem pay2_eq (x : FVec Ideal S5000x128 .f32) (w : FVec Ideal S128x64 .f32) :
    k2_pay1 (F := Ideal) x w = Host.dotGeneral (DotDims.plain 5000 128 64) none x w := by
  unfold k2_pay1
  simp only [shapeCast_self]
  exact Cert.Lib.rounded_product (DotDims.plain 5000 128 64) none x w _ _

/-- The reference's product is the plain [100000, 128] by [128, 64] product. -/
theorem layer2_eq (X : FVec Ideal S100000x128 .f32) (W : FVec Ideal S128x64 .f32) :
    timesW1 X W = Host.dotGeneral (DotDims.plain 100000 128 64) none X W := rfl

/-- The printed index maps, decided over the grid: the left and the result block are block t of their arrays, the
    right operand is whole. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What grid point t writes back is block t of the whole product of the arrays the region found. -/
theorem flushed2_eq (c : Dev nD) (t : Fin cfg2.N) :
    (dat2 V c).flushed 2 t = ((cfg2.win 2).blk t).view.read (Elt Ideal)
      (timesW1 (V c (Pipeline.arrRef spec2 0)) (V c (Pipeline.arrRef spec2 1))) := by
  show (cfg2.win 2).cut (grid2.coords t) ((dat2 V c).after 2 t) = _
  rw [after2_2]
  unfold out2_2
  rw [View.canon_unit_zero Cert.Lib.zero2]
  simp only [View.ld_unit_zero (S := S5000x128) Cert.Lib.zero2, View.ld_unit_zero (S := S128x64) Cert.Lib.zero2]
  rw [pay2_eq (iblk2 V c 0 t) (iblk2 V c 1 t)]
  obtain ⟨e0, e1, e2, e3, e4, e5⟩ := idx_facts2 t
  funext j
  show Host.dotGeneral (DotDims.plain 5000 128 64) none (iblk2 V c 0 t) (iblk2 V c 1 t) j
    = timesW1 (V c (Pipeline.arrRef spec2 0)) (V c (Pipeline.arrRef spec2 1)) (((cfg2.win 2).blk t).view.emb j)
  rw [layer2_eq (V c (Pipeline.arrRef spec2 0)) (V c (Pipeline.arrRef spec2 1))]
  refine Cert.Lib.dot_block_read (m := 5000) (M := 100000) (k := 128) (n := 64) none (iblk2 V c 0 t) (iblk2 V c 1 t)
    (V c (Pipeline.arrRef spec2 0)) (V c (Pipeline.arrRef spec2 1))
    ((cfg2.win 0).blk t).view.emb ((cfg2.win 1).blk t).view.emb ((cfg2.win 2).blk t).view.emb (t.val * 5000)
    (fun _ => rfl) (fun _ => rfl) ?_ ?_ ?_ ?_ ?_ ?_ j
  · intro y; show win2_0.index t (0 : Fin 2) * 5000 + 1 * (y 0).val = _; omega
  · intro y; show win2_0.index t (1 : Fin 2) * 128 + 1 * (y 1).val = _; omega
  · intro y; show win2_1.index t (0 : Fin 2) * 128 + 1 * (y 0).val = _; omega
  · intro y; show win2_1.index t (1 : Fin 2) * 64 + 1 * (y 1).val = _; omega
  · intro y; show win2_2.index t (0 : Fin 2) * 5000 + 1 * (y 0).val = _; omega
  · intro y; show win2_2.index t (1 : Fin 2) * 64 + 1 * (y 1).val = _; omega

/-- An index of the output array is in point t's block iff each coordinate is in the block's range on its axis. -/
theorem mem_blk2 (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v6).slice (win2_2.rect t)).set ↔ _
  rw [View.set_slice_whole, Rect.mem_set_unit]
  exact Iff.rfl

/-- Every row of the output lies in some grid point's block: row r in the block of point r / 5000. -/
theorem cover2 (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 20 := N_2
  obtain ⟨t, ht⟩ : ∃ t : Fin cfg2.N, t.val = (i 0).val / 5000 := ⟨⟨(i 0).val / 5000, by rw [hN]; omega⟩, rfl⟩
  obtain ⟨e0, e1, e2, e3, e4, e5⟩ := idx_facts2 t
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- The array the region leaves in its output is the whole product of the two arrays it found. -/
theorem dot_region2 (c : Dev nD) :
    (dat2 V c).arrAt 2 cfg2.N
      = timesW1 (V c (Pipeline.arrRef spec2 0)) (V c (Pipeline.arrRef spec2 1)) :=
  (dat2 V c).arrAt_eq_of_cover 2 _ (fun t _ => flushed2_eq V c t) (cover2)

end Cert.Bridge

end
-- ==== Proof.DotRegion4.lean ====
/-
  The second layer's feature transform: the fifth kernel launch leaves h · W2.

  At every grid point t the kernel loads rows 5000·t … 5000·t + 4999 of the left array and the whole right matrix,
  multiplies them (operands rounded to bf16, which is the identity on the extended reals; accumulated from zero) and
  writes the 5000 result rows back to the same rows of the output. Entry (5000·t + p, q) of the whole product depends
  on row 5000·t + p of the left array only, so each written block is that block of rows of the one whole product, and
  the twenty blocks tile the output's rows.
-/
import proofs.«180948_j3899830305165_1_alg».proof.Proof.Gen.KernelIdeal.Frame
import proofs.«180948_j3899830305165_1_alg».proof.Proof.LayerForms
import proofs.«180948_j3899830305165_1_alg».proof.Proof.LibRowBlockDot
import proofs.«180948_j3899830305165_1_alg».proof.Proof.LibKernelHostForms

set_option maxRecDepth 16384

noncomputable section

namespace Cert.Bridge

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The body's arithmetic is the host's product of the loaded block with the loaded matrix. -/
theorem pay4_eq (x : FVec Ideal S5000x64 .f32) (w : FVec Ideal S64x64 .f32) :
    k4_pay1 (F := Ideal) x w = Host.dotGeneral (DotDims.plain 5000 64 64) none x w := by
  unfold k4_pay1
  simp only [shapeCast_self]
  exact Cert.Lib.rounded_product (DotDims.plain 5000 64 64) none x w _ _

/-- The reference's product is the plain [100000, 64] by [64, 64] product. -/
theorem layer4_eq (X : FVec Ideal S100000x64 .f32) (W : FVec Ideal S64x64 .f32) :
    timesW2 X W = Host.dotGeneral (DotDims.plain 100000 64 64) none X W := rfl

/-- The printed index maps, decided over the grid: the left and the result block are block t of their arrays, the
    right operand is whole. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What grid point t writes back is block t of the whole product of the arrays the region found. -/
theorem flushed4_eq (c : Dev nD) (t : Fin cfg4.N) :
    (dat4 V c).flushed 2 t = ((cfg4.win 2).blk t).view.read (Elt Ideal)
      (timesW2 (V c (Pipeline.arrRef spec4 0)) (V c (Pipeline.arrRef spec4 1))) := by
  show (cfg4.win 2).cut (grid4.coords t) ((dat4 V c).after 2 t) = _
  rw [after4_2]
  unfold out4_2
  rw [View.canon_unit_zero Cert.Lib.zero2]
  simp only [View.ld_unit_zero (S := S5000x64) Cert.Lib.zero2, View.ld_unit_zero (S := S64x64) Cert.Lib.zero2]
  rw [pay4_eq (iblk4 V c 0 t) (iblk4 V c 1 t)]
  obtain ⟨e0, e1, e2, e3, e4, e5⟩ := idx_facts4 t
  funext j
  show Host.dotGeneral (DotDims.plain 5000 64 64) none (iblk4 V c 0 t) (iblk4 V c 1 t) j
    = timesW2 (V c (Pipeline.arrRef spec4 0)) (V c (Pipeline.arrRef spec4 1)) (((cfg4.win 2).blk t).view.emb j)
  rw [layer4_eq (V c (Pipeline.arrRef spec4 0)) (V c (Pipeline.arrRef spec4 1))]
  refine Cert.Lib.dot_block_read (m := 5000) (M := 100000) (k := 64) (n := 64) none (iblk4 V c 0 t) (iblk4 V c 1 t)
    (V c (Pipeline.arrRef spec4 0)) (V c (Pipeline.arrRef spec4 1))
    ((cfg4.win 0).blk t).view.emb ((cfg4.win 1).blk t).view.emb ((cfg4.win 2).blk t).view.emb (t.val * 5000)
    (fun _ => rfl) (fun _ => rfl) ?_ ?_ ?_ ?_ ?_ ?_ j
  · intro y; show win4_0.index t (0 : Fin 2) * 5000 + 1 * (y 0).val = _; omega
  · intro y; show win4_0.index t (1 : Fin 2) * 64 + 1 * (y 1).val = _; omega
  · intro y; show win4_1.index t (0 : Fin 2) * 64 + 1 * (y 0).val = _; omega
  · intro y; show win4_1.index t (1 : Fin 2) * 64 + 1 * (y 1).val = _; omega
  · intro y; show win4_2.index t (0 : Fin 2) * 5000 + 1 * (y 0).val = _; omega
  · intro y; show win4_2.index t (1 : Fin 2) * 64 + 1 * (y 1).val = _; omega

/-- An index of the output array is in point t's block iff each coordinate is in the block's range on its axis. -/
theorem mem_blk4 (t : Fin cfg4.N) (i : S100000x64.Idx) :
    i ∈ ((cfg4.win 2).blk t).view.set ↔ ∀ a : Fin 2, win4_2.index t a * S5000x64.size a ≤ (i a).val ∧ (i a).val < win4_2.index t a * S5000x64.size a + S5000x64.size a := by
  show i ∈ ((View.whole main_v46).slice (win4_2.rect t)).set ↔ _
  rw [View.set_slice_whole, Rect.mem_set_unit]
  exact Iff.rfl

/-- Every row of the output lies in some grid point's block: row r in the block of point r / 5000. -/
theorem cover4 (i : S100000x64.Idx) :
    ∃ t : Fin cfg4.N, (cfg4.win 2).flush t = true ∧ i ∈ ((cfg4.win 2).blk t).view.set := by
  have hi0 : (i 0).val < 100000 := (i 0).isLt
  have hi1 : (i 1).val < 64 := (i 1).isLt
  have hN : cfg4.N = 20 := N_4
  obtain ⟨t, ht⟩ : ∃ t : Fin cfg4.N, t.val = (i 0).val / 5000 := ⟨⟨(i 0).val / 5000, by rw [hN]; omega⟩, rfl⟩
  obtain ⟨e0, e1, e2, e3, e4, e5⟩ := idx_facts4 t
  refine ⟨t, flush4_2 t, ?_⟩
  rw [mem_blk4]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 64 ≤ (i 1).val ∧ (i 1).val < win4_2.index t (1 : Fin 2) * 64 + 64; omega

/-- The array the region leaves in its output is the whole product of the two arrays it found. -/
theorem dot_region4 (c : Dev nD) :
    (dat4 V c).arrAt 2 cfg4.N
      = timesW2 (V c (Pipeline.arrRef spec4 0)) (V c (Pipeline.arrRef spec4 1)) :=
  (dat4 V c).arrAt_eq_of_cover 2 _ (fun t _ => flushed4_eq V c t) (cover4)

end Cert.Bridge

end
-- ==== Proof.GraphForms.lean ====
/-
  The graph side of the network, as functions of whole arrays over the extended reals, and the network itself.

  From the edge list (two rows: sources, destinations) the reference computes, per node, the degree counted with one
  self-loop, its inverse square root `r`; per edge, the weight r(src) · r(dst) (an index is first wrapped: a negative
  one has the node count added); the aggregate, the scatter-sum over destinations of weight · hw(src); and the
  self-loop's share, the column r². One layer is relu((aggregate + r² ⊙ hw) + bias). None of this is ever opened in the
  proof: both programs apply these same operations to the same operands.
-/
import proofs.«180948_j3899830305165_1_alg».proof.Proof.LayerForms

noncomputable section

namespace Cert.Bridge

open Idealize.ShloMosaic Cert.ReferenceIdeal Cert.ReferenceIdeal.Facts₀

/-- An array of one 32-bit integer per edge. -/
abbrev EdgeInts := (⟨S1600000, .i32⟩ : BufTy).Contents (Elt Ideal)

/-- The sources: row 0 of the edge list. -/
def srcOf (e : (⟨S2x1600000, .i32⟩ : BufTy).Contents (Elt Ideal)) : EdgeInts :=
  shapeCast S1600000 (extractStridedSlice S1x1600000 ![0, 0] e slices_S2x1600000_S1x1600000_0_0) shapeCasts_S1x1600000_S1600000

/-- The destinations: row 1 of the edge list. -/
def dstOf (e : (⟨S2x1600000, .i32⟩ : BufTy).Contents (Elt Ideal)) : EdgeInts :=
  shapeCast S1600000 (extractStridedSlice S1x1600000 ![1, 0] e slices_S2x1600000_S1x1600000_1_0) shapeCasts_S1x1600000_S1600000

/-- A negative index has the node count added. -/
def wrapIdx (i : EdgeInts) : EdgeInts :=
  select (cmpi .slt i (broadcastInDim S1600000 ![] bcast_S_S1600000 (constantI S_ 32 0#32)))
    (addi i (broadcastInDim S1600000 ![] bcast_S_S1600000 (constantI S_ 32 100000#32))) i

/-- The inverse square root of the degree counted with one self-loop. -/
def invRootDeg (dst : EdgeInts) : FVec Ideal S100000 .f32 :=
  Host.rsqrt (addf (broadcastInDim S100000 ![] bcast_S_S100000 (constant S_ .f32 0x3F800000#32))
    (Host.scatterAdd scatter_S100000_S1600000x1_S1600000_n_0_0_1
      (broadcastInDim S100000 ![] bcast_S_S100000 (constant S_ .f32 0x00000000#32))
      (broadcastInDim S1600000x1 ![0] bcast_S1600000_S1600000x1_0 dst)
      (broadcastInDim S1600000 ![] bcast_S_S1600000 (constant S_ .f32 0x3F800000#32))))

/-- The weight of an edge: r(src) · r(dst). -/
def edgeWeight (src dst : EdgeInts) : FVec Ideal S1600000 .f32 :=
  mulf (Host.gather gather_S100000_S1600000x1_S1600000_n_0_n_n_0_1_1 (invRootDeg dst)
      (broadcastInDim S1600000x1 ![0] bcast_S1600000_S1600000x1_0 (wrapIdx src)))
    (Host.gather gather_S100000_S1600000x1_S1600000_n_0_n_n_0_1_1 (invRootDeg dst)
      (broadcastInDim S1600000x1 ![0] bcast_S1600000_S1600000x1_0 (wrapIdx dst)))

/-- The aggregate: the scatter-sum over destinations of weight · hw(src). -/
def aggregate (hw : FVec Ideal S100000x64 .f32) (src dst : EdgeInts) : FVec Ideal S100000x64 .f32 :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 dst)
    (mulf (broadcastInDim S1600000x64 ![0, 1] bcast_S1600000x1_S1600000x64_0_1
        (broadcastInDim S1600000x1 ![0] bcast_S1600000_S1600000x1_0 (edgeWeight src dst)))
      (Host.gather gather_S100000x64_S1600000x1_S1600000x64_1_0_n_n_0_1_164 hw
        (broadcastInDim S1600000x1 ![0] bcast_S1600000_S1600000x1_0 (wrapIdx src))))

/-- The self-loop's share of a node: the column r². -/
def selfWeight (dst : EdgeInts) : FVec Ideal S100000x1 .f32 :=
  broadcastInDim S100000x1 ![0] bcast_S100000_S100000x1_0 (mulf (invRootDeg dst) (invRootDeg dst))

/-- A 64-vector as a [1,64] row. -/
def biasRow64 (b : FVec Ideal S64 .f32) : FVec Ideal S1x64 .f32 := broadcastInDim S1x64 ![1] bcast_S64_S1x64_1 b

/-- A 40-vector as a [1,40] row. -/
def biasRow40 (b : FVec Ideal S40 .f32) : FVec Ideal S1x40 .f32 := broadcastInDim S1x40 ![1] bcast_S40_S1x40_1 b

/-- One graph-convolution layer on already transformed features `hw`. -/
def gcnLayer (hw : FVec Ideal S100000x64 .f32) (e : (⟨S2x1600000, .i32⟩ : BufTy).Contents (Elt Ideal))
    (b : FVec Ideal S64 .f32) : FVec Ideal S100000x64 .f32 :=
  convCombine (aggregate hw (srcOf e) (dstOf e)) hw (selfWeight (dstOf e)) (biasRow64 b)

/-- The whole network. -/
def network (x : FVec Ideal S100000x128 .f32) (e : (⟨S2x1600000, .i32⟩ : BufTy).Contents (Elt Ideal))
    (em : FVec Ideal S1x128 .f32) (w0 : FVec Ideal S128x1 .f32) (b0 : FVec Ideal S128x128 .f32)
    (W1 : FVec Ideal S128x64 .f32) (bc1 : FVec Ideal S64 .f32) (W2 : FVec Ideal S64x64 .f32) (bc2 : FVec Ideal S64 .f32)
    (Wl : FVec Ideal S64x40 .f32) (bl : FVec Ideal S40 .f32) : FVec Ideal S100000x40 .f32 :=
  logSoftmaxRows (readOut
    (gcnLayer (timesW2 (gcnLayer (timesW1 (featTimesTable x (weightTable w0 em b0)) W1) e bc1) W2) e bc2)
    Wl (biasRow40 bl))

end Cert.Bridge

end
-- ==== Proof.LibRowOfVector.lean ====
/-
  A vector laid out as a one-row matrix, two ways.

  Reshaping a vector of length n to [1, n] and broadcasting it along dimension 1 of [1, n] both put entry j of the vector at
  position (0, j): the two arrays are equal.
-/
import Idealize.ShloMosaic.Lib.Pipeline.Value
import Idealize.ShloMosaic.Lib.ValueIdx

noncomputable section

namespace Cert.Lib

open Idealize.ShloMosaic Idealize.ShloMosaic.ValueIdx

/-- The reshape of a length-n vector to one row is its broadcast along dimension 1 of [1, n]. -/
theorem shapeCast_row_eq_broadcastInDim {n : Nat} {α : Type} (b : (⟨1, ![n]⟩ : Shape).Idx → α)
    (h : (⟨1, ![n]⟩ : Shape).ShapeCasts ⟨2, ![1, n]⟩)
    (h' : (⟨1, ![n]⟩ : Shape).BroadcastsInDim ⟨2, ![1, n]⟩ (![1] : Fin 1 → Fin 2)) :
    shapeCast ⟨2, ![1, n]⟩ b h = broadcastInDim ⟨2, ![1, n]⟩ ![1] h' b := by
  funext j
  obtain ⟨p, q, rfl⟩ : ∃ (p : Fin 1) (q : Fin n), j = ix2 p q := ⟨j 0, j 1, eq_ix2 j⟩
  have hp : p.val = 0 := by omega
  -- both sides read the vector at q
  rw [shapeCast_apply b h (ix2 p q) (ix1 q) (by
        rw [Shape.rowMajor_val_one, Shape.rowMajor_val_two]
        show q.val = p.val * n + q.val
        rw [hp]; omega),
      broadcastInDim_apply ![1] h' b (ix2 p q) (ix1 q) (fun a => by
        match a with
        | ⟨0, _⟩ =>
          show q.val = if n = 1 then 0 else q.val
          split
          · omega
          · rfl)]

end Cert.Lib

end
-- ==== Proof.KernelFirstHalf.lean ====
/-
  The idealized kernel's buffers, boundary by boundary, up to the first graph-convolution layer's combine step.

  Before the first launch the host cuts the two rows of the edge list. The first three launches leave the weight
  table T = relu(w0 · E + b0), then x · T, then (x · T) · W1 (each launch's output is the reference's layer of what the
  launch found; what it found is the launch contents of the arguments and the previous launch's output). The host
  stretch that follows computes, from that product and the edge rows, the aggregate, the self-loop column and the
  bias row with the same operations the reference applies.
-/
import proofs.«180948_j3899830305165_1_alg».proof.Proof.Boundaries
import proofs.«180948_j3899830305165_1_alg».proof.Proof.TableRegion
import proofs.«180948_j3899830305165_1_alg».proof.Proof.DotRegion1
import proofs.«180948_j3899830305165_1_alg».proof.Proof.DotRegion2
import proofs.«180948_j3899830305165_1_alg».proof.Proof.DotRegion4
import proofs.«180948_j3899830305165_1_alg».proof.Proof.GraphForms
import proofs.«180948_j3899830305165_1_alg».proof.Proof.LibRowOfVector
import Idealize.ShloMosaic.Lib.StableHlo.Run

set_option maxRecDepth 16384

noncomputable section

namespace Cert.KernelIdeal.Run

open Cert.KernelIdeal Cert.KernelIdeal.Gen Cert.Bridge
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

theorem congr2 {α β γ : Sort _} (f : α → β → γ) {a a' : α} {b b' : β} (ha : a = a') (hb : b = b') : f a b = f a' b' := by
  subst ha hb; rfl
theorem congr3 {α β γ δ : Sort _} (f : α → β → γ → δ) {a a' : α} {b b' : β} {d d' : γ} (ha : a = a') (hb : b = b') (hd : d = d') :
    f a b d = f a' b' d' := by
  subst ha hb hd; rfl
theorem congr4 {α β γ δ ε : Sort _} (f : α → β → γ → δ → ε) {a a' : α} {b b' : β} {d d' : γ} {e e' : δ}
    (ha : a = a') (hb : b = b') (hd : d = d') (he : e = e') : f a b d e = f a' b' d' e' := by
  subst ha hb hd he; rfl

/-- The sources, cut out of the edge list before the first launch. -/
theorem src_at_1 : W1 m ρ c (Proc.devRef .tc main_v1) = srcOf (m ((c : Thread nD τ).loc main_arg1)) := by
  show StableHlo.after hostOps0 (W0 m ρ c) (Proc.devRef .tc main_v1) = _
  dsimp only [hostOps0]
  after_results
  rfl

/-- The destinations, cut out of the edge list before the first launch. -/
theorem dst_at_1 : W1 m ρ c (Proc.devRef .tc main_v3) = dstOf (m ((c : Thread nD τ).loc main_arg1)) := by
  show StableHlo.after hostOps0 (W0 m ρ c) (Proc.devRef .tc main_v3) = _
  dsimp only [hostOps0]
  after_results
  rfl

/-- After the first launch: the weight table. -/
theorem table_at_2 : W2 m ρ c (Proc.devRef .tc main_v4)
    = weightTable (m ((c : Thread nD τ).loc main_arg3)) (m ((c : Thread nD τ).loc main_arg2)) (m ((c : Thread nD τ).loc main_arg4)) :=
  (W2_arr m ρ c 3).trans ((table_region (V1 m ρ) c).trans
    (congr3 weightTable (launch_main_arg3_1 m ρ c) (launch_main_arg2_1 m ρ c) (launch_main_arg4_1 m ρ c)))

/-- After the second launch: the features times the table. -/
theorem feat_at_3 : W3 m ρ c (Proc.devRef .tc main_v5)
    = featTimesTable (m ((c : Thread nD τ).loc main_arg0))
        (weightTable (m ((c : Thread nD τ).loc main_arg3)) (m ((c : Thread nD τ).loc main_arg2)) (m ((c : Thread nD τ).loc main_arg4))) :=
  (W3_arr m ρ c 2).trans ((dot_region1 (V2 m ρ) c).trans
    (congr2 featTimesTable (launch_main_arg0_2 m ρ c) (table_at_2 m ρ c)))

/-- After the third launch: the first layer's transformed features. -/
theorem hw1_at_4 : W4 m ρ c (Proc.devRef .tc main_v6)
    = timesW1 (featTimesTable (m ((c : Thread nD τ).loc main_arg0))
        (weightTable (m ((c : Thread nD τ).loc main_arg3)) (m ((c : Thread nD τ).loc main_arg2)) (m ((c : Thread nD τ).loc main_arg4))))
        (m ((c : Thread nD τ).loc main_arg5)) :=
  (W4_arr m ρ c 2).trans ((dot_region2 (V3 m ρ) c).trans
    (congr2 timesW1 (feat_at_3 m ρ c) (launch_main_arg5_3 m ρ c)))

/-- The host stretch before the first combine step: the aggregate of what it found. -/
theorem agg1_at_5 : W5 m ρ c (Proc.devRef .tc main_v41)
    = aggregate (W4 m ρ c (Proc.devRef .tc main_v6)) (W4 m ρ c (Proc.devRef .tc main_v1)) (W4 m ρ c (Proc.devRef .tc main_v3)) := by
  show StableHlo.after hostOps3 (W4 m ρ c) (Proc.devRef .tc main_v41) = _
  dsimp only [hostOps3]
  after_results_simp
  rfl

/-- The same stretch: the self-loop column. -/
theorem self1_at_5 : W5 m ρ c (Proc.devRef .tc main_v43) = selfWeight (W4 m ρ c (Proc.devRef .tc main_v3)) := by
  show StableHlo.after hostOps3 (W4 m ρ c) (Proc.devRef .tc main_v43) = _
  dsimp only [hostOps3]
  after_results_simp
  rfl

/-- The same stretch: the bias vector recast as a row, which is the vector spread along dimension 1 of [1,64]. -/
theorem bias1_at_5 : W5 m ρ c (Proc.devRef .tc main_v44) = biasRow64 (W4 m ρ c (Proc.devRef .tc main_arg6)) := by
  show StableHlo.after hostOps3 (W4 m ρ c) (Proc.devRef .tc main_v44) = _
  dsimp only [hostOps3]
  after_results_simp
  exact Cert.Lib.shapeCast_row_eq_broadcastInDim _ _ _

end Cert.KernelIdeal.Run

end
-- ==== Proof.LibColumnLayout.lean ====
/-
  The two layout steps a per-row statistic (a row sum, mean or maximum kept as a column) goes through before it meets
  the rows again, read at an index, for any element type: a vector of per-row numbers [a] recast as a column [a, 1]
  (`Cert.Lib.shapeCast_a_a1_apply`: the column at (i, ·) is the vector at i), and the column spread over the b lanes
  of each row, [a, 1] → [a, b] (`Cert.Lib.broadcastTo_a1_ab_apply`: the spread block at (p, c) is the column at (p, 0)).
-/
import Idealize.ShloMosaic.Lib.ValueLayout

namespace Cert.Lib

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib
-- ==== Proof.ConvRegion3.lean ====
/-
  The graph-convolution combine step of region 3, as one function of whole arrays.

  The region runs over 20 grid points. At point t its body reads rows 5000 t .. 5000 t + 4999 of the aggregated messages
  agg and of the transformed features hw (both [100000, 64]), the same rows of the column d ([100000, 1]), and the whole
  bias row b ([1, 64]); it writes rows 5000 t .. 5000 t + 4999 of the output. Entry (p, q) of the block it writes is
  max ((agg (r, q) + d (r, 0) * hw (r, q)) + b (0, q), 0) with r = 5000 t + p: the column is spread along the 64 features
  and the row along the 5000 nodes of the block. Row r of the output therefore depends only on row r of agg, hw and d and
  on the bias row, and it is the same expression, in the same grouping, as entry (r, q) of the reference's layer
  relu ((agg + d ⊙ hw) + b) on the whole arrays. The 20 blocks tile the 100000 rows (row r lies in the block of point
  r / 5000), so the array the region leaves is that layer of the arrays the region found.
-/
import proofs.«180948_j3899830305165_1_alg».proof.Proof.Gen.KernelIdeal.Frame
import proofs.«180948_j3899830305165_1_alg».proof.Proof.LayerForms
import proofs.«180948_j3899830305165_1_alg».proof.Proof.LibHostSpread
import proofs.«180948_j3899830305165_1_alg».proof.Proof.LibColumnLayout
import Idealize.ShloMosaic.Lib.Pipeline.Value
import Idealize.ShloMosaic.Lib.ValueIdx
import Idealize.ShloMosaic.Lib.ValueLayout

noncomputable section

namespace Cert.Bridge

open Cert.KernelIdeal Cert.KernelIdeal.Gen Idealize.ShloMosaic Idealize.ShloMosaic.TcCoe Idealize.ShloMosaic.ValueIdx
open Idealize.ShloMosaic.Pipeline (Dat)

namespace Conv3

/-- The zero offsets of a whole-block access, however they are spelt. -/
theorem origin3 : (![0, 0] : Fin 2 → Nat) = fun _ => 0 := funext fun a => by fin_cases a <;> rfl

/-- Entry (p, q) of the block the combine step's body computes, when row p of the row-indexed blocks is row r of the
    whole arrays: the same expression max ((agg + d * hw) + b, 0) of row r of the whole arrays, the column d read at
    (r, 0) and the bias row at (0, q), in the same grouping. Nothing but reading both sides at the index. -/
theorem combine3_at (x0 x4 : Vec Ideal S5000x64 .f32) (x2 : Vec Ideal S5000x1 .f32) (x9 : Vec Ideal S1x64 .f32)
    (A H : FVec Ideal S100000x64 .f32) (D : FVec Ideal S100000x1 .f32) (B : FVec Ideal S1x64 .f32)
    (p : Fin 5000) (q : Fin 64) (r : Fin 100000)
    (hA : x0 (ix2 p q) = A (ix2 r q)) (hH : x4 (ix2 p q) = H (ix2 r q))
    (hD : x2 (ix2 p (0 : Fin 1)) = D (ix2 r (0 : Fin 1))) (hB : x9 (ix2 (0 : Fin 1) q) = B (ix2 (0 : Fin 1) q)) :
    k3_pay1 x0 x2 x4 x9 (ix2 p q) = convCombine A H D B (ix2 r q) := by
  unfold k3_pay1 convCombine reluNodes
  simp only [maximumf_apply, addf_apply, mulf_apply, broadcast_apply, shapeCast_self]
  rw [Cert.Lib.broadcastTo_a1_ab_apply, broadcastTo_1b_ab_apply, Cert.Lib.spread_a1_ab_apply, Cert.Lib.spread_1b_ab_apply,
    Cert.Lib.splat_apply, hA, hH, hD, hB]
  rfl

/-- The same for a block whose row p is row off + p of the whole arrays: the block the body computes, read at an index,
    is the layer of the whole arrays read at the index off rows further down. -/
theorem combine3_block (x0 x4 : Vec Ideal S5000x64 .f32) (x2 : Vec Ideal S5000x1 .f32) (x9 : Vec Ideal S1x64 .f32)
    (A H : FVec Ideal S100000x64 .f32) (D : FVec Ideal S100000x1 .f32) (B : FVec Ideal S1x64 .f32) (off : Nat)
    (hA : ∀ (y : S5000x64.Idx) (i : S100000x64.Idx), (i 0).val = off + (y 0).val → (i 1).val = (y 1).val → x0 y = A i)
    (hH : ∀ (y : S5000x64.Idx) (i : S100000x64.Idx), (i 0).val = off + (y 0).val → (i 1).val = (y 1).val → x4 y = H i)
    (hD : ∀ (y : S5000x1.Idx) (i : S100000x1.Idx), (i 0).val = off + (y 0).val → x2 y = D i)
    (hB : ∀ y : S1x64.Idx, x9 y = B y)
    (y : S5000x64.Idx) (i : S100000x64.Idx) (h0 : (i 0).val = off + (y 0).val) (h1 : (i 1).val = (y 1).val) :
    k3_pay1 x0 x2 x4 x9 y = convCombine A H D B i := by
  obtain ⟨p, q, rfl⟩ : ∃ (p : Fin 5000) (q : Fin 64), y = ix2 p q := ⟨y 0, y 1, eq_ix2 y⟩
  obtain ⟨r, q', rfl⟩ : ∃ (r : Fin 100000) (q' : Fin 64), i = ix2 r q' := ⟨i 0, i 1, eq_ix2 i⟩
  have hq : q' = q := Fin.ext h1
  subst hq
  exact combine3_at x0 x4 x2 x9 A H D B _ _ _ (hA _ _ h0 rfl) (hH _ _ h0 rfl) (hD _ _ h0) (hB _)

/-- The printed index maps, decided over the 20 grid points: the three row-indexed inputs and the output are at block
    (t, 0) at point t, the bias row at block (0, 0). -/
theorem block_index3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

variable (V : (c : Dev nD) → (b : Ref sig .tc) → Buf (Elt Ideal) ((c : Thread nD τ).loc b))

set_option maxHeartbeats 2000000 in
/-- What point t writes back is block t of the layer of the arrays the region found. -/
theorem flushed3_eq (c : Dev nD) (t : Fin cfg3.N) :
    (dat3 (F := Ideal) V c).flushed 4 t = ((cfg3.win 4).blk t).view.read (Elt Ideal)
      (convCombine (V c (Pipeline.arrRef spec3 0)) (V c (Pipeline.arrRef spec3 1)) (V c (Pipeline.arrRef spec3 2))
        (V c (Pipeline.arrRef spec3 3))) := by
  show (cfg3.win 4).cut (grid3.coords t) ((dat3 V c).after 4 t) = _
  rw [after3_4]
  unfold out3_4
  rw [View.canon_unit_zero origin3]
  simp only [View.ld_unit_zero (S := S5000x64) origin3, View.ld_unit_zero (S := S5000x1) origin3,
    View.ld_unit_zero (S := S1x64) origin3]
  obtain ⟨e00, e01, e10, e11, e20, e21, e30, e31, e40, e41⟩ := block_index3 t
  funext j
  show k3_pay1 (iblk3 V c 0 t) (iblk3 V c 2 t) (iblk3 V c 1 t) (iblk3 V c 3 t) j
    = convCombine (V c (Pipeline.arrRef spec3 0)) (V c (Pipeline.arrRef spec3 1)) (V c (Pipeline.arrRef spec3 2))
        (V c (Pipeline.arrRef spec3 3)) (((cfg3.win 4).blk t).view.emb j)
  refine combine3_block (iblk3 V c 0 t) (iblk3 V c 1 t) (iblk3 V c 2 t) (iblk3 V c 3 t)
    (V c (Pipeline.arrRef spec3 0)) (V c (Pipeline.arrRef spec3 1)) (V c (Pipeline.arrRef spec3 2))
    (V c (Pipeline.arrRef spec3 3)) (t.val * 5000) ?_ ?_ ?_ ?_ j (((cfg3.win 4).blk t).view.emb j) ?_ ?_
  · intro y i h0 h1
    have h : ((cfg3.win 0).blk t).view.emb y = i := by
      funext a; apply Fin.ext
      match a with
      | ⟨0, _⟩ => show win3_0.index t (0 : Fin 2) * 5000 + 1 * (y 0).val = (i 0).val; omega
      | ⟨1, _⟩ => show win3_0.index t (1 : Fin 2) * 64 + 1 * (y 1).val = (i 1).val; omega
    show V c (Pipeline.arrRef spec3 0) (((cfg3.win 0).blk t).view.emb y) = V c (Pipeline.arrRef spec3 0) i
    rw [h]
  · intro y i h0 h1
    have h : ((cfg3.win 1).blk t).view.emb y = i := by
      funext a; apply Fin.ext
      match a with
      | ⟨0, _⟩ => show win3_1.index t (0 : Fin 2) * 5000 + 1 * (y 0).val = (i 0).val; omega
      | ⟨1, _⟩ => show win3_1.index t (1 : Fin 2) * 64 + 1 * (y 1).val = (i 1).val; omega
    show V c (Pipeline.arrRef spec3 1) (((cfg3.win 1).blk t).view.emb y) = V c (Pipeline.arrRef spec3 1) i
    rw [h]
  · intro y i h0
    have hy : (y 1).val < 1 := idx2_lt1 y
    have hi : (i 1).val < 1 := idx2_lt1 i
    have h : ((cfg3.win 2).blk t).view.emb y = i := by
      funext a; apply Fin.ext
      match a with
      | ⟨0, _⟩ => show win3_2.index t (0 : Fin 2) * 5000 + 1 * (y 0).val = (i 0).val; omega
      | ⟨1, _⟩ => show win3_2.index t (1 : Fin 2) * 1 + 1 * (y 1).val = (i 1).val; omega
    show V c (Pipeline.arrRef spec3 2) (((cfg3.win 2).blk t).view.emb y) = V c (Pipeline.arrRef spec3 2) i
    rw [h]
  · intro y
    have h : ((cfg3.win 3).blk t).view.emb y = y := by
      funext a; apply Fin.ext
      match a with
      | ⟨0, _⟩ => show win3_3.index t (0 : Fin 2) * 1 + 1 * (y 0).val = (y 0).val; omega
      | ⟨1, _⟩ => show win3_3.index t (1 : Fin 2) * 64 + 1 * (y 1).val = (y 1).val; omega
    show V c (Pipeline.arrRef spec3 3) (((cfg3.win 3).blk t).view.emb y) = V c (Pipeline.arrRef spec3 3) y
    rw [h]
  · show win3_4.index t (0 : Fin 2) * 5000 + 1 * (j 0).val = t.val * 5000 + (j 0).val; omega
  · show win3_4.index t (1 : Fin 2) * 64 + 1 * (j 1).val = (j 1).val; omega

/-- An index of the output array is in point t's block iff each coordinate is in the block's range on its axis. -/
theorem mem_block3 (t : Fin cfg3.N) (i : S100000x64.Idx) :
    i ∈ ((cfg3.win 4).blk t).view.set ↔ ∀ a : Fin 2, win3_4.index t a * S5000x64.size a ≤ (i a).val
      ∧ (i a).val < win3_4.index t a * S5000x64.size a + S5000x64.size a := by
  show i ∈ ((View.whole main_v45).slice (win3_4.rect t)).set ↔ _
  rw [View.set_slice_whole, Rect.mem_set_unit]
  exact Iff.rfl

/-- Every row of the output is in some point's block: row r in the block of point r / 5000. -/
theorem cover3 (i : S100000x64.Idx) :
    ∃ t : Fin cfg3.N, (cfg3.win 4).flush t = true ∧ i ∈ ((cfg3.win 4).blk t).view.set := by
  have hi0 : (i 0).val < 100000 := idx2_lt0 i
  have hi1 : (i 1).val < 64 := idx2_lt1 i
  have hN : cfg3.N = 20 := N_3
  obtain ⟨t, ht⟩ : ∃ t : Fin cfg3.N, t.val = (i 0).val / 5000 := ⟨⟨(i 0).val / 5000, by rw [hN]; omega⟩, rfl⟩
  obtain ⟨e00, e01, e10, e11, e20, e21, e30, e31, e40, e41⟩ := block_index3 t
  refine ⟨t, flush3_4 t, ?_⟩
  rw [mem_block3]
  intro a
  match a with
  | ⟨0, _⟩ =>
    show win3_4.index t (0 : Fin 2) * 5000 ≤ (i 0).val ∧ (i 0).val < win3_4.index t (0 : Fin 2) * 5000 + 5000
    omega
  | ⟨1, _⟩ =>
    show win3_4.index t (1 : Fin 2) * 64 ≤ (i 1).val ∧ (i 1).val < win3_4.index t (1 : Fin 2) * 64 + 64
    omega

end Conv3

/-- The array region 3 leaves is the combine layer of the arrays it found. -/
theorem conv_region3
    (V : (c : Dev nD) → (b : Ref sig .tc) → Buf (Elt Ideal) ((c : Thread nD τ).loc b)) (c : Dev nD) :
    (dat3 (F := Ideal) V c).arrAt 4 cfg3.N
      = convCombine (V c (Pipeline.arrRef spec3 0)) (V c (Pipeline.arrRef spec3 1)) (V c (Pipeline.arrRef spec3 2))
          (V c (Pipeline.arrRef spec3 3)) :=
  (dat3 (F := Ideal) V c).arrAt_eq_of_cover 4 _ (fun t _ => Conv3.flushed3_eq V c t) Conv3.cover3

end Cert.Bridge

end
-- ==== Proof.ConvRegion5.lean ====
/-
  The graph-convolution combine step of region 5, as one function of whole arrays.

  The region runs over 20 grid points. At point t its body reads rows 5000 t .. 5000 t + 4999 of the aggregated messages
  agg and of the transformed features hw (both [100000, 64]), the same rows of the column d ([100000, 1]), and the whole
  bias row b ([1, 64]); it writes rows 5000 t .. 5000 t + 4999 of the output. Entry (p, q) of the block it writes is
  max ((agg (r, q) + d (r, 0) * hw (r, q)) + b (0, q), 0) with r = 5000 t + p: the column is spread along the 64 features
  and the row along the 5000 nodes of the block. Row r of the output therefore depends only on row r of agg, hw and d and
  on the bias row, and it is the same expression, in the same grouping, as entry (r, q) of the reference's layer
  relu ((agg + d ⊙ hw) + b) on the whole arrays. The 20 blocks tile the 100000 rows (row r lies in the block of point
  r / 5000), so the array the region leaves is that layer of the arrays the region found.
-/
import proofs.«180948_j3899830305165_1_alg».proof.Proof.Gen.KernelIdeal.Frame
import proofs.«180948_j3899830305165_1_alg».proof.Proof.LayerForms
import proofs.«180948_j3899830305165_1_alg».proof.Proof.LibHostSpread
import proofs.«180948_j3899830305165_1_alg».proof.Proof.LibColumnLayout
import Idealize.ShloMosaic.Lib.Pipeline.Value
import Idealize.ShloMosaic.Lib.ValueIdx
import Idealize.ShloMosaic.Lib.ValueLayout

noncomputable section

namespace Cert.Bridge

open Cert.KernelIdeal Cert.KernelIdeal.Gen Idealize.ShloMosaic Idealize.ShloMosaic.TcCoe Idealize.ShloMosaic.ValueIdx
open Idealize.ShloMosaic.Pipeline (Dat)

namespace Conv5

/-- The zero offsets of a whole-block access, however they are spelt. -/
theorem origin5 : (![0, 0] : Fin 2 → Nat) = fun _ => 0 := funext fun a => by fin_cases a <;> rfl

/-- Entry (p, q) of the block the combine step's body computes, when row p of the row-indexed blocks is row r of the
    whole arrays: the same expression max ((agg + d * hw) + b, 0) of row r of the whole arrays, the column d read at
    (r, 0) and the bias row at (0, q), in the same grouping. Nothing but reading both sides at the index. -/
theorem combine5_at (x0 x4 : Vec Ideal S5000x64 .f32) (x2 : Vec Ideal S5000x1 .f32) (x9 : Vec Ideal S1x64 .f32)
    (A H : FVec Ideal S100000x64 .f32) (D : FVec Ideal S100000x1 .f32) (B : FVec Ideal S1x64 .f32)
    (p : Fin 5000) (q : Fin 64) (r : Fin 100000)
    (hA : x0 (ix2 p q) = A (ix2 r q)) (hH : x4 (ix2 p q) = H (ix2 r q))
    (hD : x2 (ix2 p (0 : Fin 1)) = D (ix2 r (0 : Fin 1))) (hB : x9 (ix2 (0 : Fin 1) q) = B (ix2 (0 : Fin 1) q)) :
    k5_pay1 x0 x2 x4 x9 (ix2 p q) = convCombine A H D B (ix2 r q) := by
  unfold k5_pay1 convCombine reluNodes
  simp only [maximumf_apply, addf_apply, mulf_apply, broadcast_apply, shapeCast_self]
  rw [Cert.Lib.broadcastTo_a1_ab_apply, broadcastTo_1b_ab_apply, Cert.Lib.spread_a1_ab_apply, Cert.Lib.spread_1b_ab_apply,
    Cert.Lib.splat_apply, hA, hH, hD, hB]
  rfl

/-- The same for a block whose row p is row off + p of the whole arrays: the block the body computes, read at an index,
    is the layer of the whole arrays read at the index off rows further down. -/
theorem combine5_block (x0 x4 : Vec Ideal S5000x64 .f32) (x2 : Vec Ideal S5000x1 .f32) (x9 : Vec Ideal S1x64 .f32)
    (A H : FVec Ideal S100000x64 .f32) (D : FVec Ideal S100000x1 .f32) (B : FVec Ideal S1x64 .f32) (off : Nat)
    (hA : ∀ (y : S5000x64.Idx) (i : S100000x64.Idx), (i 0).val = off + (y 0).val → (i 1).val = (y 1).val → x0 y = A i)
    (hH : ∀ (y : S5000x64.Idx) (i : S100000x64.Idx), (i 0).val = off + (y 0).val → (i 1).val = (y 1).val → x4 y = H i)
    (hD : ∀ (y : S5000x1.Idx) (i : S100000x1.Idx), (i 0).val = off + (y 0).val → x2 y = D i)
    (hB : ∀ y : S1x64.Idx, x9 y = B y)
    (y : S5000x64.Idx) (i : S100000x64.Idx) (h0 : (i 0).val = off + (y 0).val) (h1 : (i 1).val = (y 1).val) :
    k5_pay1 x0 x2 x4 x9 y = convCombine A H D B i := by
  obtain ⟨p, q, rfl⟩ : ∃ (p : Fin 5000) (q : Fin 64), y = ix2 p q := ⟨y 0, y 1, eq_ix2 y⟩
  obtain ⟨r, q', rfl⟩ : ∃ (r : Fin 100000) (q' : Fin 64), i = ix2 r q' := ⟨i 0, i 1, eq_ix2 i⟩
  have hq : q' = q := Fin.ext h1
  subst hq
  exact combine5_at x0 x4 x2 x9 A H D B _ _ _ (hA _ _ h0 rfl) (hH _ _ h0 rfl) (hD _ _ h0) (hB _)

/-- The printed index maps, decided over the 20 grid points: the three row-indexed inputs and the output are at block
    (t, 0) at point t, the bias row at block (0, 0). -/
theorem block_index5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

variable (V : (c : Dev nD) → (b : Ref sig .tc) → Buf (Elt Ideal) ((c : Thread nD τ).loc b))

set_option maxHeartbeats 2000000 in
/-- What point t writes back is block t of the layer of the arrays the region found. -/
theorem flushed5_eq (c : Dev nD) (t : Fin cfg5.N) :
    (dat5 (F := Ideal) V c).flushed 4 t = ((cfg5.win 4).blk t).view.read (Elt Ideal)
      (convCombine (V c (Pipeline.arrRef spec5 0)) (V c (Pipeline.arrRef spec5 1)) (V c (Pipeline.arrRef spec5 2))
        (V c (Pipeline.arrRef spec5 3))) := by
  show (cfg5.win 4).cut (grid5.coords t) ((dat5 V c).after 4 t) = _
  rw [after5_4]
  unfold out5_4
  rw [View.canon_unit_zero origin5]
  simp only [View.ld_unit_zero (S := S5000x64) origin5, View.ld_unit_zero (S := S5000x1) origin5,
    View.ld_unit_zero (S := S1x64) origin5]
  obtain ⟨e00, e01, e10, e11, e20, e21, e30, e31, e40, e41⟩ := block_index5 t
  funext j
  show k5_pay1 (iblk5 V c 0 t) (iblk5 V c 2 t) (iblk5 V c 1 t) (iblk5 V c 3 t) j
    = convCombine (V c (Pipeline.arrRef spec5 0)) (V c (Pipeline.arrRef spec5 1)) (V c (Pipeline.arrRef spec5 2))
        (V c (Pipeline.arrRef spec5 3)) (((cfg5.win 4).blk t).view.emb j)
  refine combine5_block (iblk5 V c 0 t) (iblk5 V c 1 t) (iblk5 V c 2 t) (iblk5 V c 3 t)
    (V c (Pipeline.arrRef spec5 0)) (V c (Pipeline.arrRef spec5 1)) (V c (Pipeline.arrRef spec5 2))
    (V c (Pipeline.arrRef spec5 3)) (t.val * 5000) ?_ ?_ ?_ ?_ j (((cfg5.win 4).blk t).view.emb j) ?_ ?_
  · intro y i h0 h1
    have h : ((cfg5.win 0).blk t).view.emb y = i := by
      funext a; apply Fin.ext
      match a with
      | ⟨0, _⟩ => show win5_0.index t (0 : Fin 2) * 5000 + 1 * (y 0).val = (i 0).val; omega
      | ⟨1, _⟩ => show win5_0.index t (1 : Fin 2) * 64 + 1 * (y 1).val = (i 1).val; omega
    show V c (Pipeline.arrRef spec5 0) (((cfg5.win 0).blk t).view.emb y) = V c (Pipeline.arrRef spec5 0) i
    rw [h]
  · intro y i h0 h1
    have h : ((cfg5.win 1).blk t).view.emb y = i := by
      funext a; apply Fin.ext
      match a with
      | ⟨0, _⟩ => show win5_1.index t (0 : Fin 2) * 5000 + 1 * (y 0).val = (i 0).val; omega
      | ⟨1, _⟩ => show win5_1.index t (1 : Fin 2) * 64 + 1 * (y 1).val = (i 1).val; omega
    show V c (Pipeline.arrRef spec5 1) (((cfg5.win 1).blk t).view.emb y) = V c (Pipeline.arrRef spec5 1) i
    rw [h]
  · intro y i h0
    have hy : (y 1).val < 1 := idx2_lt1 y
    have hi : (i 1).val < 1 := idx2_lt1 i
    have h : ((cfg5.win 2).blk t).view.emb y = i := by
      funext a; apply Fin.ext
      match a with
      | ⟨0, _⟩ => show win5_2.index t (0 : Fin 2) * 5000 + 1 * (y 0).val = (i 0).val; omega
      | ⟨1, _⟩ => show win5_2.index t (1 : Fin 2) * 1 + 1 * (y 1).val = (i 1).val; omega
    show V c (Pipeline.arrRef spec5 2) (((cfg5.win 2).blk t).view.emb y) = V c (Pipeline.arrRef spec5 2) i
    rw [h]
  · intro y
    have h : ((cfg5.win 3).blk t).view.emb y = y := by
      funext a; apply Fin.ext
      match a with
      | ⟨0, _⟩ => show win5_3.index t (0 : Fin 2) * 1 + 1 * (y 0).val = (y 0).val; omega
      | ⟨1, _⟩ => show win5_3.index t (1 : Fin 2) * 64 + 1 * (y 1).val = (y 1).val; omega
    show V c (Pipeline.arrRef spec5 3) (((cfg5.win 3).blk t).view.emb y) = V c (Pipeline.arrRef spec5 3) y
    rw [h]
  · show win5_4.index t (0 : Fin 2) * 5000 + 1 * (j 0).val = t.val * 5000 + (j 0).val; omega
  · show win5_4.index t (1 : Fin 2) * 64 + 1 * (j 1).val = (j 1).val; omega

/-- An index of the output array is in point t's block iff each coordinate is in the block's range on its axis. -/
theorem mem_block5 (t : Fin cfg5.N) (i : S100000x64.Idx) :
    i ∈ ((cfg5.win 4).blk t).view.set ↔ ∀ a : Fin 2, win5_4.index t a * S5000x64.size a ≤ (i a).val
      ∧ (i a).val < win5_4.index t a * S5000x64.size a + S5000x64.size a := by
  show i ∈ ((View.whole main_v85).slice (win5_4.rect t)).set ↔ _
  rw [View.set_slice_whole, Rect.mem_set_unit]
  exact Iff.rfl

/-- Every row of the output is in some point's block: row r in the block of point r / 5000. -/
theorem cover5 (i : S100000x64.Idx) :
    ∃ t : Fin cfg5.N, (cfg5.win 4).flush t = true ∧ i ∈ ((cfg5.win 4).blk t).view.set := by
  have hi0 : (i 0).val < 100000 := idx2_lt0 i
  have hi1 : (i 1).val < 64 := idx2_lt1 i
  have hN : cfg5.N = 20 := N_5
  obtain ⟨t, ht⟩ : ∃ t : Fin cfg5.N, t.val = (i 0).val / 5000 := ⟨⟨(i 0).val / 5000, by rw [hN]; omega⟩, rfl⟩
  obtain ⟨e00, e01, e10, e11, e20, e21, e30, e31, e40, e41⟩ := block_index5 t
  refine ⟨t, flush5_4 t, ?_⟩
  rw [mem_block5]
  intro a
  match a with
  | ⟨0, _⟩ =>
    show win5_4.index t (0 : Fin 2) * 5000 ≤ (i 0).val ∧ (i 0).val < win5_4.index t (0 : Fin 2) * 5000 + 5000
    omega
  | ⟨1, _⟩ =>
    show win5_4.index t (1 : Fin 2) * 64 ≤ (i 1).val ∧ (i 1).val < win5_4.index t (1 : Fin 2) * 64 + 64
    omega

end Conv5

/-- The array region 5 leaves is the combine layer of the arrays it found. -/
theorem conv_region5
    (V : (c : Dev nD) → (b : Ref sig .tc) → Buf (Elt Ideal) ((c : Thread nD τ).loc b)) (c : Dev nD) :
    (dat5 (F := Ideal) V c).arrAt 4 cfg5.N
      = convCombine (V c (Pipeline.arrRef spec5 0)) (V c (Pipeline.arrRef spec5 1)) (V c (Pipeline.arrRef spec5 2))
          (V c (Pipeline.arrRef spec5 3)) :=
  (dat5 (F := Ideal) V c).arrAt_eq_of_cover 4 _ (fun t _ => Conv5.flushed5_eq V c t) Conv5.cover5

end Cert.Bridge

end
-- ==== Proof.ReadOutRegion.lean ====
/-
  The read-out of region 6, as one function of whole arrays.

  The region runs over 20 grid points. At point t its body reads rows 5000 t .. 5000 t + 4999 of the node features h
  ([100000, 64]), the whole weight matrix w ([64, 40]) and the whole bias row b ([1, 40]); it writes rows
  5000 t .. 5000 t + 4999 of the output ([100000, 40]). Entry (p, q) of the block it writes is the sum over c of
  h (r, c) * w (c, q), plus b (0, q), with r = 5000 t + p: the operands of the product are rounded to bf16, which is the
  identity on the extended reals, the accumulator starts at zero, and the bias row is spread along the 5000 nodes of the
  block. Row r of the output therefore depends only on row r of h and on w and b whole, and it is entry (r, q) of the
  reference's h · w + b on the whole arrays: a block of rows of a matrix product is the product of the block of rows. The
  20 blocks tile the 100000 rows (row r lies in the block of point r / 5000), so the array the region leaves is the
  read-out of the arrays the region found.
-/
import proofs.«180948_j3899830305165_1_alg».proof.Proof.Gen.KernelIdeal.Frame
import proofs.«180948_j3899830305165_1_alg».proof.Proof.LayerForms
import proofs.«180948_j3899830305165_1_alg».proof.Proof.LibHostSpread
import proofs.«180948_j3899830305165_1_alg».proof.Proof.LibKernelHostForms
import Idealize.ShloMosaic.Lib.StackMember
import Idealize.ShloMosaic.Lib.Pipeline.Value
import Idealize.ShloMosaic.Lib.ValueIdx
import Idealize.ShloMosaic.Lib.ValueLayout

noncomputable section

namespace Cert.Bridge

open Cert.KernelIdeal Cert.KernelIdeal.Gen Idealize.ShloMosaic Idealize.ShloMosaic.TcCoe Idealize.ShloMosaic.ValueIdx
open Idealize.ShloMosaic.Pipeline (Dat)

namespace ReadOut

/-- The zero offsets of a whole-block access, however they are spelt. -/
theorem origin6 : (![0, 0] : Fin 2 → Nat) = fun _ => 0 := funext fun a => by fin_cases a <;> rfl

/-- The kernel's block product record and the reference's whole product record are the plain [m, 64] by [64, 40]
    product's dimension numbers. -/
theorem dims6_block : dot_S5000x64_S64x40_S5000x40_1_0_0_1_n_n = DotDims.plain 5000 64 40 := rfl
theorem dims6_whole : Cert.ReferenceIdeal.dot_S100000x64_S64x40_S100000x40_1_0_0_1_n_n = DotDims.plain 100000 64 40 := rfl

/-- Entry (p, q) of the block the read-out's body computes, when row p of the block of h is row r of the whole h:
    the sum over c of h (r, c) * w (c, q), plus the bias b (0, q) — rounding the operands to bf16 is the identity on the
    extended reals and the accumulator starts at zero —, which is entry (r, q) of the reference's h · w + b. -/
theorem readOut_at (x0 : FVec Ideal S5000x64 .f32) (x3 : FVec Ideal S64x40 .f32) (x6 : FVec Ideal S1x40 .f32)
    (X : FVec Ideal S100000x64 .f32) (W : FVec Ideal S64x40 .f32) (B : FVec Ideal S1x40 .f32)
    (p : Fin 5000) (q : Fin 40) (r : Fin 100000)
    (hX : ∀ c : Fin 64, x0 (ix2 p c) = X (ix2 r c)) (hW : ∀ y, x3 y = W y)
    (hB : x6 (ix2 (0 : Fin 1) q) = B (ix2 (0 : Fin 1) q)) :
    k6_pay1 x0 x3 x6 (ix2 p q) = readOut X W B (ix2 r q) := by
  unfold k6_pay1 readOut
  simp only [addf_apply, shapeCast_self]
  rw [Cert.Lib.rounded_product, dims6_block, dims6_whole, StackMember.dotGeneral_plain_apply,
    StackMember.dotGeneral_plain_apply, broadcastTo_1b_ab_apply, Cert.Lib.spread_1b_ab_apply, hB]
  congr 1
  exact Finset.sum_congr rfl fun c _ => by rw [hX c, hW]

/-- The same for a block whose row p is row off + p of the whole h: the block the body computes, read at an index, is
    the read-out of the whole arrays read at the index off rows further down. -/
theorem readOut_block (x0 : FVec Ideal S5000x64 .f32) (x3 : FVec Ideal S64x40 .f32) (x6 : FVec Ideal S1x40 .f32)
    (X : FVec Ideal S100000x64 .f32) (W : FVec Ideal S64x40 .f32) (B : FVec Ideal S1x40 .f32) (off : Nat)
    (hX : ∀ (y : S5000x64.Idx) (i : S100000x64.Idx), (i 0).val = off + (y 0).val → (i 1).val = (y 1).val → x0 y = X i)
    (hW : ∀ y, x3 y = W y) (hB : ∀ y, x6 y = B y)
    (y : S5000x40.Idx) (i : S100000x40.Idx) (h0 : (i 0).val = off + (y 0).val) (h1 : (i 1).val = (y 1).val) :
    k6_pay1 x0 x3 x6 y = readOut X W B i := by
  obtain ⟨p, q, rfl⟩ : ∃ (p : Fin 5000) (q : Fin 40), y = ix2 p q := ⟨y 0, y 1, eq_ix2 y⟩
  obtain ⟨r, q', rfl⟩ : ∃ (r : Fin 100000) (q' : Fin 40), i = ix2 r q' := ⟨i 0, i 1, eq_ix2 i⟩
  have hq : q' = q := Fin.ext h1
  subst hq
  exact readOut_at x0 x3 x6 X W B _ _ _ (fun c => hX (ix2 _ c) (ix2 _ c) h0 rfl) hW (hB _)

/-- The printed index maps, decided over the 20 grid points: the features and the output are at block (t, 0) at point
    t, the weight matrix and the bias row at block (0, 0). -/
theorem block_index6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

variable (V : (c : Dev nD) → (b : Ref sig .tc) → Buf (Elt Ideal) ((c : Thread nD τ).loc b))

set_option maxHeartbeats 2000000 in
/-- What point t writes back is block t of the read-out of the arrays the region found. -/
theorem flushed6_eq (c : Dev nD) (t : Fin cfg6.N) :
    (dat6 (F := Ideal) V c).flushed 3 t = ((cfg6.win 3).blk t).view.read (Elt Ideal)
      (readOut (V c (Pipeline.arrRef spec6 0)) (V c (Pipeline.arrRef spec6 1)) (V c (Pipeline.arrRef spec6 2))) := by
  show (cfg6.win 3).cut (grid6.coords t) ((dat6 V c).after 3 t) = _
  rw [after6_3]
  unfold out6_3
  rw [View.canon_unit_zero origin6]
  simp only [View.ld_unit_zero (S := S5000x64) origin6, View.ld_unit_zero (S := S64x40) origin6,
    View.ld_unit_zero (S := S1x40) origin6]
  obtain ⟨e00, e01, e10, e11, e20, e21, e30, e31⟩ := block_index6 t
  funext j
  show k6_pay1 (iblk6 V c 0 t) (iblk6 V c 1 t) (iblk6 V c 2 t) j
    = readOut (V c (Pipeline.arrRef spec6 0)) (V c (Pipeline.arrRef spec6 1)) (V c (Pipeline.arrRef spec6 2))
        (((cfg6.win 3).blk t).view.emb j)
  refine readOut_block (iblk6 V c 0 t) (iblk6 V c 1 t) (iblk6 V c 2 t)
    (V c (Pipeline.arrRef spec6 0)) (V c (Pipeline.arrRef spec6 1)) (V c (Pipeline.arrRef spec6 2))
    (t.val * 5000) ?_ ?_ ?_ j (((cfg6.win 3).blk t).view.emb j) ?_ ?_
  · intro y i h0 h1
    have h : ((cfg6.win 0).blk t).view.emb y = i := by
      funext a; apply Fin.ext
      match a with
      | ⟨0, _⟩ => show win6_0.index t (0 : Fin 2) * 5000 + 1 * (y 0).val = (i 0).val; omega
      | ⟨1, _⟩ => show win6_0.index t (1 : Fin 2) * 64 + 1 * (y 1).val = (i 1).val; omega
    show V c (Pipeline.arrRef spec6 0) (((cfg6.win 0).blk t).view.emb y) = V c (Pipeline.arrRef spec6 0) i
    rw [h]
  · intro y
    have h : ((cfg6.win 1).blk t).view.emb y = y := by
      funext a; apply Fin.ext
      match a with
      | ⟨0, _⟩ => show win6_1.index t (0 : Fin 2) * 64 + 1 * (y 0).val = (y 0).val; omega
      | ⟨1, _⟩ => show win6_1.index t (1 : Fin 2) * 40 + 1 * (y 1).val = (y 1).val; omega
    show V c (Pipeline.arrRef spec6 1) (((cfg6.win 1).blk t).view.emb y) = V c (Pipeline.arrRef spec6 1) y
    rw [h]
  · intro y
    have h : ((cfg6.win 2).blk t).view.emb y = y := by
      funext a; apply Fin.ext
      match a with
      | ⟨0, _⟩ => show win6_2.index t (0 : Fin 2) * 1 + 1 * (y 0).val = (y 0).val; omega
      | ⟨1, _⟩ => show win6_2.index t (1 : Fin 2) * 40 + 1 * (y 1).val = (y 1).val; omega
    show V c (Pipeline.arrRef spec6 2) (((cfg6.win 2).blk t).view.emb y) = V c (Pipeline.arrRef spec6 2) y
    rw [h]
  · show win6_3.index t (0 : Fin 2) * 5000 + 1 * (j 0).val = t.val * 5000 + (j 0).val; omega
  · show win6_3.index t (1 : Fin 2) * 40 + 1 * (j 1).val = (j 1).val; omega

/-- An index of the output array is in point t's block iff each coordinate is in the block's range on its axis. -/
theorem mem_block6 (t : Fin cfg6.N) (i : S100000x40.Idx) :
    i ∈ ((cfg6.win 3).blk t).view.set ↔ ∀ a : Fin 2, win6_3.index t a * S5000x40.size a ≤ (i a).val
      ∧ (i a).val < win6_3.index t a * S5000x40.size a + S5000x40.size a := by
  show i ∈ ((View.whole main_v87).slice (win6_3.rect t)).set ↔ _
  rw [View.set_slice_whole, Rect.mem_set_unit]
  exact Iff.rfl

/-- Every row of the output is in some point's block: row r in the block of point r / 5000. -/
theorem cover6 (i : S100000x40.Idx) :
    ∃ t : Fin cfg6.N, (cfg6.win 3).flush t = true ∧ i ∈ ((cfg6.win 3).blk t).view.set := by
  have hi0 : (i 0).val < 100000 := idx2_lt0 i
  have hi1 : (i 1).val < 40 := idx2_lt1 i
  have hN : cfg6.N = 20 := N_6
  obtain ⟨t, ht⟩ : ∃ t : Fin cfg6.N, t.val = (i 0).val / 5000 := ⟨⟨(i 0).val / 5000, by rw [hN]; omega⟩, rfl⟩
  obtain ⟨e00, e01, e10, e11, e20, e21, e30, e31⟩ := block_index6 t
  refine ⟨t, flush6_3 t, ?_⟩
  rw [mem_block6]
  intro a
  match a with
  | ⟨0, _⟩ =>
    show win6_3.index t (0 : Fin 2) * 5000 ≤ (i 0).val ∧ (i 0).val < win6_3.index t (0 : Fin 2) * 5000 + 5000
    omega
  | ⟨1, _⟩ =>
    show win6_3.index t (1 : Fin 2) * 40 ≤ (i 1).val ∧ (i 1).val < win6_3.index t (1 : Fin 2) * 40 + 40
    omega

end ReadOut

/-- The array region 6 leaves is the read-out of the arrays it found. -/
theorem readOut_region
    (V : (c : Dev nD) → (b : Ref sig .tc) → Buf (Elt Ideal) ((c : Thread nD τ).loc b)) (c : Dev nD) :
    (dat6 (F := Ideal) V c).arrAt 3 cfg6.N
      = readOut (V c (Pipeline.arrRef spec6 0)) (V c (Pipeline.arrRef spec6 1)) (V c (Pipeline.arrRef spec6 2)) :=
  (dat6 (F := Ideal) V c).arrAt_eq_of_cover 3 _ (fun t _ => ReadOut.flushed6_eq V c t) ReadOut.cover6

end Cert.Bridge

end
-- ==== Proof.LibHeadLayout.lean ====
/-
  Three readings at an index that a kernel's head meets when a matrix product with a one-column matrix is written as a
  broadcast multiply and a sum over the lanes.

  * The sum over the lanes of a [a, b] block, started from zero, read at row p, is the sum over k of the block's entries
    (p, k): over the extended reals a reduction from the neutral element is the plain finite sum.
  * A one-column matrix [a, 1] recast as a row [1, a] reads, at (·, q), the column's entry (q, 0): the recast keeps the
    row-major order, and both shapes list the same a numbers in it.
  * A one-entry vector recast as a one-entry matrix reads its entry.
-/
import Idealize.ShloMosaic.Lib.Pipeline.Value
import Idealize.ShloMosaic.Lib.ValueIdx
import Idealize.ShloMosaic.PureOps.Ideal.Laws

noncomputable section

namespace Cert.Lib

open Idealize.ShloMosaic Idealize.ShloMosaic.ValueIdx

/-- Summing the lanes of an [a, b] array from zero: at row p the result is the sum over k of the entries (p, k). -/
theorem lane_sum_zero_apply {a b : Nat} (src : FVec Ideal ⟨2, ![a, b]⟩ .f32)
    (h : (⟨2, ![a, b]⟩ : Shape).Reduces [1] ⟨1, ![a]⟩) (hφ : FKind.Formats .f32)
    (hacc : (0x00000000#32 : BitVec FTy.f32.bits) = FKind.add.neutral .f32 hφ) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  show ∑ k : Fin b, src (h.lift (ix1 p) k) = _
  refine Finset.sum_congr rfl fun k _ => congrArg src ?_
  funext c; apply Fin.ext
  fin_cases c <;> rfl

variable {α : Type}

/-- An [a, 1] column recast as a [1, a] row reads, at (u, q), the column at (q, 0). -/
theorem shapeCast_a1_1a_apply {a : ℕ} (x : (⟨2, ![a, 1]⟩ : Shape).Idx → α) (h : (⟨2, ![a, 1]⟩ : Shape).ShapeCasts ⟨2, ![1, a]⟩)
    (u : Fin 1) (q : Fin a) : shapeCast ⟨2, ![1, a]⟩ x h (ix2 u q) = x (ix2 q (0 : Fin 1)) :=
  shapeCast_apply x h _ _ (by
    have hu : u.val = 0 := by omega
    rw [Shape.rowMajor_val_two, Shape.rowMajor_val_two]
    show q.val * 1 + 0 = u.val * a + q.val
    rw [hu, Nat.zero_mul, Nat.zero_add, Nat.mul_one, Nat.add_zero])

/-- A one-entry vector recast as a [1, 1] matrix reads, everywhere, its entry. -/
theorem shapeCast_1_11_apply (x : (⟨1, ![1]⟩ : Shape).Idx → α) (h : (⟨1, ![1]⟩ : Shape).ShapeCasts ⟨2, ![1, 1]⟩)
    (u w : Fin 1) : shapeCast ⟨2, ![1, 1]⟩ x h (ix2 u w) = x (ix1 (0 : Fin 1)) :=
  shapeCast_apply x h _ _ (by
    have hu : u.val = 0 := by omega
    have hw : w.val = 0 := by omega
    rw [Shape.rowMajor_val_one, Shape.rowMajor_val_two]
    show 0 = u.val * 1 + w.val
    rw [hu, hw])

end Cert.Lib

end
-- ==== Proof.SoftmaxRegion.lean ====
/-
  Region 7: the row-wise log-softmax of the logits.

  On a block of 5000 rows by 40 lanes the kernel takes, for every row p, the maximum m_p of the row folded from -inf,
  the shifted row z = x - m_p (the maxima recast as a column and spread along the lanes), the sum s_p over the lanes of
  exp z folded from 0, and writes z - log s_p (again a column spread along the lanes). The reference does the same on
  the whole [100000, 40] array with the host's operations, except that its row maximum is joined once more with -inf;
  over the extended reals max(-inf, a) = a for every a, so the two row maxima are the same number and no finiteness
  is needed anywhere. Both sides therefore read, at (r, q), the same function of row r alone
  (Cert.Bridge.Softmax.rowLogSoftmax): entry q less the row maximum, less the log of the sum over the row of the exp
  of the entries less the row maximum.

  Grid point t's input and output blocks are rows 5000 t … 5000 t + 4999 of their arrays, all 40 lanes. Row r of the
  result depends only on row r of the logits, which is row r mod 5000 of block r / 5000; so what point t writes back
  is block t of the reference's whole-array function of the logits, the twenty blocks tile the result, and the array
  the region leaves is that function of the logits the region found (Cert.Bridge.logSoftmax_region).
-/
import proofs.«180948_j3899830305165_1_alg».proof.Proof.Gen.KernelIdeal.Frame
import proofs.«180948_j3899830305165_1_alg».proof.Proof.LayerForms
import proofs.«180948_j3899830305165_1_alg».proof.Proof.LibColumnLayout
import proofs.«180948_j3899830305165_1_alg».proof.Proof.LibHostSpread
import proofs.«180948_j3899830305165_1_alg».proof.Proof.LibHeadLayout
import Idealize.ShloMosaic.Lib.Pipeline.Value
import Idealize.ShloMosaic.PureOps.Ideal.Laws

noncomputable section

namespace Cert.Bridge

open Idealize.ShloMosaic Idealize.ShloMosaic.ValueIdx

namespace Softmax

/-- The log-softmax of one row. -/
def rowLogSoftmax {b : ℕ} (f : Fin b → EReal) (q : Fin b) : EReal :=
  (f q - Finset.univ.fold max ⊥ f) - Ideal.log (∑ k : Fin b, Ideal.exp (f k - Finset.univ.fold max ⊥ f))

/-- The f32 word of -inf denotes the least extended real. -/
theorem negInf_f32 : Ideal.ofBits .f32 0xFF800000#32 = ⊥ := by simp [Ideal.ofBits, Ideal.ieee]

/-- The maximum over the lanes of an [a, b] block folded from -inf: at row p, the fold of max from ⊥ over the entries (p, k). -/
theorem lane_max_bot_apply {a b : ℕ} (src : FVec Ideal ⟨2, ![a, b]⟩ .f32)
    (h : (⟨2, ![a, b]⟩ : Shape).Reduces [1] ⟨1, ![a]⟩) (hφ : FKind.Formats .f32)
    (hacc : (0xFF800000#32 : BitVec FTy.f32.bits) = FKind.maximumf.neutral .f32 hφ) (p : Fin a) :
    multiReduction .maximumf [1] ⟨1, ![a]⟩ src 0xFF800000#32 h hφ hacc (ix1 p)
      = (Finset.univ : Finset (Fin b)).fold max ⊥ (fun k => src (ix2 p k)) := by
  refine (Ideal.multiReduction_maximumf_single src 0xFF800000#32 h hφ hacc (ix1 p)).trans ?_
  show (Finset.univ : Finset (Fin b)).fold max (Ideal.ofBits .f32 0xFF800000#32) (src ∘ h.lift (ix1 p)) = _
  rw [negInf_f32]
  refine congrArg (fun f => Finset.fold max ⊥ f (Finset.univ : Finset (Fin b))) ?_
  funext k
  show src (h.lift (ix1 p) k) = src (ix2 p k)
  refine congrArg src ?_
  funext c; apply Fin.ext
  fin_cases c <;> rfl

/-- The host's maximum over axis 1 of an [a, b] array from -inf: at row r, the fold of max from ⊥ over the entries (r, k). -/
theorem host_row_max_apply {a b : ℕ} (X : FVec Ideal ⟨2, ![a, b]⟩ .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (r : Fin a) :
    Host.reduce FloatOps.maximumf X (constant (F := Ideal) ⟨0, ![]⟩ .f32 0xFF800000#32) h' hu (ix1 r)
      = (Finset.univ : Finset (Fin b)).fold max ⊥ (fun k => X (ix2 r k)) := by
  rw [Host.reduce_eq_fold_single FloatOps.maximumf X _ h' h hu]
  show (Finset.univ : Finset (Fin b)).fold max (Ideal.ofBits .f32 0xFF800000#32) (X ∘ h.lift (ix1 r)) = _
  rw [negInf_f32]
  refine congrArg (fun f => Finset.fold max ⊥ f (Finset.univ : Finset (Fin b))) ?_
  funext k
  show X (h.lift (ix1 r) k) = X (ix2 r k)
  refine congrArg X ?_
  funext c; apply Fin.ext
  fin_cases c <;> rfl

/-- The host's sum over axis 1 of an [a, b] array from zero: at row r, the sum over k of the entries (r, k). -/
theorem host_row_sum_apply {a b : ℕ} (X : FVec Ideal ⟨2, ![a, b]⟩ .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (r : Fin a) :
    Host.reduceAdd (F := Ideal) X (constant (F := Ideal) ⟨0, ![]⟩ .f32 0x00000000#32) h' hu (ix1 r)
      = ∑ k : Fin b, X (ix2 r k) := by
  show Ideal.hostReduceAdd h' X (Ideal.ofBits .f32 0x00000000#32) (ix1 r) = _
  rw [Ideal.hostReduceAdd_single h' h, Ideal.ofBits_zero_f32, zero_add]
  show ∑ k : Fin b, X (h.lift (ix1 r) k) = _
  refine Finset.sum_congr rfl fun k _ => congrArg X ?_
  funext c; apply Fin.ext
  fin_cases c <;> rfl

/-! ## Pointwise exp / log at an index -/

theorem vexp_apply {s : Shape} (v : FVec Ideal s .f32) (i : s.Idx) : Idealize.ShloMosaic.exp v i = Ideal.exp (v i) := rfl
theorem vlog_apply {s : Shape} (v : FVec Ideal s .f32) (i : s.Idx) : Idealize.ShloMosaic.log v i = Ideal.log (v i) := rfl
theorem hostExp_apply {s : Shape} (v : FVec Ideal s .f32) (i : s.Idx) : Host.exp v i = Ideal.exp (v i) := rfl
theorem hostLog_apply {s : Shape} (v : FVec Ideal s .f32) (i : s.Idx) : Host.log v i = Ideal.log (v i) := rfl

/-! ## The kernel's block -/

section Kernel
open Cert.KernelIdeal Cert.KernelIdeal.Gen

/-- The block's entries less their row maxima. -/
def blockShift (x : FVec Ideal S5000x40 .f32) : FVec Ideal S5000x40 .f32 :=
  subf x (broadcastTo S5000x40 (shapeCast S5000x1 (multiReduction .maximumf [1] S5000 x 0xFF800000#32
    reduces_S5000x40_S5000 (.inl rfl) rfl) shapeCasts_S5000_S5000x1) broadcasts_S5000x1_S5000x40)

/-- The body's value: the shifted block less, row by row, the log of the sum over the lanes of the exp of the shifted block. -/
theorem k7_pay1_eq (x : FVec Ideal S5000x40 .f32) :
    k7_pay1 (F := Ideal) x = subf (blockShift x) (broadcastTo S5000x40 (Idealize.ShloMosaic.log (shapeCast S5000x1
      (multiReduction .add [1] S5000 (Idealize.ShloMosaic.exp (blockShift x)) 0x00000000#32 reduces_S5000x40_S5000 (.inl rfl) rfl)
      shapeCasts_S5000_S5000x1)) broadcasts_S5000x1_S5000x40) := by
  unfold k7_pay1 blockShift
  dsimp only
  rw [shapeCast_self]

/-- The shifted block at (p, c): the entry less the maximum of row p. -/
theorem blockShift_apply (x : FVec Ideal S5000x40 .f32) (p : Fin 5000) (c : Fin 40) :
    blockShift x (ix2 p c) = x (ix2 p c) - Finset.univ.fold max ⊥ (fun k : Fin 40 => x (ix2 p k)) := by
  unfold blockShift
  rw [subf_apply]
  refine congrArg (fun m => x (ix2 p c) - m) ?_
  refine (Cert.Lib.broadcastTo_a1_ab_apply _ _ p c).trans ?_
  refine (Cert.Lib.shapeCast_a_a1_apply _ _ p 0).trans ?_
  exact lane_max_bot_apply x _ _ _ p

/-- The body's value at (p, q) is the log-softmax of row p of the block, at q. -/
theorem k7_row (x : FVec Ideal S5000x40 .f32) (p : Fin 5000) (q : Fin 40) :
    k7_pay1 (F := Ideal) x (ix2 p q) = rowLogSoftmax (fun k : Fin 40 => x (ix2 p k)) q := by
  rw [k7_pay1_eq, subf_apply, blockShift_apply]
  unfold rowLogSoftmax
  refine congrArg (fun m => (x (ix2 p q) - Finset.univ.fold max ⊥ (fun k : Fin 40 => x (ix2 p k))) - m) ?_
  refine (Cert.Lib.broadcastTo_a1_ab_apply _ _ p q).trans ?_
  rw [vlog_apply]
  refine congrArg Ideal.log ?_
  refine (Cert.Lib.shapeCast_a_a1_apply _ _ p 0).trans ?_
  refine (Cert.Lib.lane_sum_zero_apply _ _ _ _ p).trans ?_
  refine Finset.sum_congr rfl fun k _ => ?_
  rw [vexp_apply, blockShift_apply]

end Kernel

/-! ## The reference's array -/

section Reference

/-- The reference's row maximum at r: joining -inf once more changes nothing, so it is the fold of max from ⊥ over row r. -/
theorem rowMax_apply (X : FVec Ideal ⟨2, ![100000, 40]⟩ .f32) (r : Fin 100000) :
    rowMax X (ix1 r) = Finset.univ.fold max ⊥ (fun k : Fin 40 => X (ix2 r k)) := by
  unfold rowMax
  rw [maximumf_apply]
  refine (congrArg₂ max ((Cert.Lib.splat_apply _ _ (ix1 r)).trans ((constant_apply _ _).trans negInf_f32))
    (host_row_max_apply X _ (by decide) _ r)).trans ?_
  exact max_bot_left _

/-- The reference's shifted logits at (r, c): the entry less the maximum of row r. -/
theorem shifted_apply (X : FVec Ideal ⟨2, ![100000, 40]⟩ .f32) (r : Fin 100000) (c : Fin 40) :
    shifted X (ix2 r c) = X (ix2 r c) - Finset.univ.fold max ⊥ (fun k : Fin 40 => X (ix2 r k)) := by
  unfold shifted
  rw [subf_apply]
  refine congrArg (fun m => X (ix2 r c) - m) ?_
  refine (Cert.Lib.spread_a1_ab_apply _ _ r c).trans ?_
  refine (Cert.Lib.spread_a_a1_apply _ _ r 0).trans ?_
  exact rowMax_apply X r

/-- The reference's result at (r, q) is the log-softmax of row r of the logits, at q. -/
theorem logSoftmaxRows_apply (X : FVec Ideal ⟨2, ![100000, 40]⟩ .f32) (r : Fin 100000) (q : Fin 40) :
    logSoftmaxRows X (ix2 r q) = rowLogSoftmax (fun k : Fin 40 => X (ix2 r k)) q := by
  unfold logSoftmaxRows
  rw [subf_apply, shifted_apply]
  unfold rowLogSoftmax
  refine congrArg (fun m => (X (ix2 r q) - Finset.univ.fold max ⊥ (fun k : Fin 40 => X (ix2 r k))) - m) ?_
  refine (Cert.Lib.spread_a1_ab_apply _ _ r q).trans ?_
  rw [hostLog_apply]
  refine congrArg Ideal.log ?_
  refine (Cert.Lib.spread_a_a1_apply _ _ r 0).trans ?_
  refine (host_row_sum_apply _ _ (by decide) _ r).trans ?_
  refine Finset.sum_congr rfl fun k _ => ?_
  rw [hostExp_apply, shifted_apply]

end Reference

/-! ## From the blocks to the array -/

section Region
open Cert.KernelIdeal Cert.KernelIdeal.Gen Idealize.ShloMosaic.TcCoe Idealize.SL.Sem
open Idealize.ShloMosaic.Pipeline (Dat)

variable (V : (c : Dev nD) → (b : Ref sig .tc) → Buf (Elt Ideal) ((c : Thread nD τ).loc b)) (c : Dev nD)

/-- The zero offsets of a whole-block access. -/
theorem zeroOffsets : (![0, 0] : Fin 2 → Nat) = fun _ => 0 := funext fun a => by fin_cases a <;> rfl

/-- Both windows' block at grid point t is block row t, the one block column. -/
theorem blockIndex7 : ∀ t : Fin cfg7.N, win7_0.index t (0 : Fin 2) = t.val ∧ win7_0.index t (1 : Fin 2) = 0
    ∧ win7_1.index t (0 : Fin 2) = t.val ∧ win7_1.index t (1 : Fin 2) = 0 :=
  (by decide +kernel : ∀ t : Fin grid7.N, _)

/-- Entry (p, k) of the input block at point t sits in the logits at (5000 t + p, k). -/
theorem emb7_0 (t : Fin cfg7.N) (p : Fin 5000) (k : Fin 40) (h : t.val * 5000 + p.val < 100000) :
    ((cfg7.win 0).blk t).view.emb (ix2 p k) = (ix2 (⟨t.val * 5000 + p.val, h⟩ : Fin 100000) k : S100000x40.Idx) := by
  obtain ⟨e0, e1, e2, e3⟩ := blockIndex7 t
  funext a; apply Fin.ext
  match a with
  | ⟨0, _⟩ => show win7_0.index t (0 : Fin 2) * 5000 + 1 * p.val = t.val * 5000 + p.val; rw [e0]; omega
  | ⟨1, _⟩ => show win7_0.index t (1 : Fin 2) * 40 + 1 * k.val = k.val; rw [e1]; omega

/-- Entry (p, k) of the output block at point t sits in the result at (5000 t + p, k). -/
theorem emb7_1 (t : Fin cfg7.N) (p : Fin 5000) (k : Fin 40) (h : t.val * 5000 + p.val < 100000) :
    ((cfg7.win 1).blk t).view.emb (ix2 p k) = (ix2 (⟨t.val * 5000 + p.val, h⟩ : Fin 100000) k : S100000x40.Idx) := by
  obtain ⟨e0, e1, e2, e3⟩ := blockIndex7 t
  funext a; apply Fin.ext
  match a with
  | ⟨0, _⟩ => show win7_1.index t (0 : Fin 2) * 5000 + 1 * p.val = t.val * 5000 + p.val; rw [e2]; omega
  | ⟨1, _⟩ => show win7_1.index t (1 : Fin 2) * 40 + 1 * k.val = k.val; rw [e3]; omega

/-- The input block at point t read at (p, k) is the logits at (5000 t + p, k). -/
theorem iblk7_apply (t : Fin cfg7.N) (p : Fin 5000) (k : Fin 40) (h : t.val * 5000 + p.val < 100000) :
    (iblk7 V c 0 t : Vec Ideal S5000x40 .f32) (ix2 p k)
      = (V c (Pipeline.arrRef spec7 0) : S100000x40.Idx → EReal) (ix2 (⟨t.val * 5000 + p.val, h⟩ : Fin 100000) k) := by
  unfold iblk7
  rw [View.read_apply]
  show (V c (Pipeline.arrRef spec7 0) : S100000x40.Idx → EReal) (((cfg7.win 0).blk t).view.emb (ix2 p k)) = _
  rw [emb7_0 t p k h]

/-- What point t writes back is block t of the row-wise log-softmax of the logits as the region finds them. -/
theorem flushed7_eq (t : Fin cfg7.N) :
    (dat7 (F := Ideal) V c).flushed 1 t
      = ((cfg7.win 1).blk t).view.read (Elt Ideal) (logSoftmaxRows (V c (Pipeline.arrRef spec7 0))) := by
  show (cfg7.win 1).cut (grid7.coords t) ((dat7 V c).after 1 t) = _
  rw [after7_1]
  unfold out7_1
  rw [View.canon_unit_zero zeroOffsets]
  simp only [View.ld_unit_zero (S := S5000x40) zeroOffsets]
  funext j
  obtain ⟨p, q, rfl⟩ : ∃ (p : Fin 5000) (q : Fin 40), j = ix2 p q := ⟨j 0, j 1, eq_ix2 j⟩
  have hN : t.val < 20 := by have h := t.isLt; have e : cfg7.N = 20 := N_7; omega
  have hr : t.val * 5000 + p.val < 100000 := by have := p.isLt; omega
  rw [View.read_apply]
  show k7_pay1 (F := Ideal) (iblk7 V c 0 t) (ix2 p q)
    = logSoftmaxRows (V c (Pipeline.arrRef spec7 0)) (((cfg7.win 1).blk t).view.emb (ix2 p q))
  rw [emb7_1 t p q hr, logSoftmaxRows_apply]
  refine (k7_row (iblk7 V c 0 t) p q).trans ?_
  refine congrArg (fun f => rowLogSoftmax f q) (funext fun k => ?_)
  exact iblk7_apply V c t p k hr

/-- An index of the result is in point t's block iff each coordinate is in the block's range on its axis. -/
theorem mem_blk7 (t : Fin cfg7.N) (i : S100000x40.Idx) :
    i ∈ ((cfg7.win 1).blk t).view.set ↔ ∀ a : Fin 2, win7_1.index t a * S5000x40.size a ≤ (i a).val
      ∧ (i a).val < win7_1.index t a * S5000x40.size a + S5000x40.size a := by
  show i ∈ ((View.whole main_v88).slice (win7_1.rect t)).set ↔ _
  rw [View.set_slice_whole, Rect.mem_set_unit]
  exact Iff.rfl

/-- Row r of the result is written by point r / 5000. -/
theorem cover7 (i : S100000x40.Idx) :
    ∃ t : Fin cfg7.N, (cfg7.win 1).flush t = true ∧ i ∈ ((cfg7.win 1).blk t).view.set := by
  have hi0 : (i 0).val < 100000 := (i 0).isLt
  have hi1 : (i 1).val < 40 := (i 1).isLt
  obtain ⟨t, ht⟩ : ∃ t : Fin cfg7.N, t.val = (i 0).val / 5000 :=
    ⟨⟨(i 0).val / 5000, by rw [show cfg7.N = 20 from N_7]; omega⟩, rfl⟩
  obtain ⟨e0, e1, e2, e3⟩ := blockIndex7 t
  refine ⟨t, flush7_1 t, ?_⟩
  rw [mem_blk7]
  intro a
  match a with
  | ⟨0, _⟩ =>
    show win7_1.index t (0 : Fin 2) * 5000 ≤ (i 0).val ∧ (i 0).val < win7_1.index t (0 : Fin 2) * 5000 + 5000
    rw [e2, ht]; omega
  | ⟨1, _⟩ =>
    show win7_1.index t (1 : Fin 2) * 40 ≤ (i 1).val ∧ (i 1).val < win7_1.index t (1 : Fin 2) * 40 + 40
    rw [e3]; omega

end Region

end Softmax

section
open Cert.KernelIdeal Cert.KernelIdeal.Gen Idealize.ShloMosaic.TcCoe Idealize.SL.Sem

/-- The array the region leaves is the row-wise log-softmax of the logits it found: every grid point writes back its
    block of that one whole-array function, and the blocks cover the array. -/
theorem logSoftmax_region
    (V : (c : Dev nD) → (b : Ref sig .tc) → Buf (Elt Ideal) ((c : Thread nD τ).loc b)) (c : Dev nD) :
    (dat7 (F := Ideal) V c).arrAt 1 cfg7.N = logSoftmaxRows (V c (Pipeline.arrRef spec7 0)) :=
  (dat7 (F := Ideal) V c).arrAt_eq_of_cover 1 (logSoftmaxRows (V c (Pipeline.arrRef spec7 0)))
    (fun t _ => Softmax.flushed7_eq V c t) (fun i => Softmax.cover7 i)

end

end Cert.Bridge

end
-- ==== Proof.KernelValue.lean ====
/-
  The idealized kernel's result: the reference network of the launch contents of the arguments.

  Each remaining launch leaves the reference's layer of what it found (the combine step of a graph-convolution layer,
  the next feature transform, the read-out, the row-wise log-softmax), each host stretch applies the reference's own
  graph operations to what it found, and what each finds is what the previous ones left. Chained from the launch
  memory, the result buffer ends at the whole network of the argument arrays.
-/
import proofs.«180948_j3899830305165_1_alg».proof.Proof.KernelFirstHalf
import proofs.«180948_j3899830305165_1_alg».proof.Proof.ConvRegion3
import proofs.«180948_j3899830305165_1_alg».proof.Proof.ConvRegion5
import proofs.«180948_j3899830305165_1_alg».proof.Proof.ReadOutRegion
import proofs.«180948_j3899830305165_1_alg».proof.Proof.SoftmaxRegion
import Idealize.ShloMosaic.Lib.StableHlo.Run

set_option maxRecDepth 16384

noncomputable section

namespace Cert.KernelIdeal.Run

open Cert.KernelIdeal Cert.KernelIdeal.Gen Cert.Bridge
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The first layer's transformed features, (x · T) · W1. -/
abbrev hw1 : FVec Ideal Cert.ReferenceIdeal.S100000x64 .f32 :=
  timesW1 (featTimesTable (m ((c : Thread nD τ).loc main_arg0)) (weightTable (m ((c : Thread nD τ).loc main_arg3)) (m ((c : Thread nD τ).loc main_arg2)) (m ((c : Thread nD τ).loc main_arg4)))) (m ((c : Thread nD τ).loc main_arg5))
/-- The first layer's output. -/
abbrev h1 : FVec Ideal Cert.ReferenceIdeal.S100000x64 .f32 := gcnLayer (hw1 m c) (m ((c : Thread nD τ).loc main_arg1)) (m ((c : Thread nD τ).loc main_arg6))
/-- The second layer's transformed features. -/
abbrev hw2 : FVec Ideal Cert.ReferenceIdeal.S100000x64 .f32 := timesW2 (h1 m c) (m ((c : Thread nD τ).loc main_arg7))
/-- The second layer's output. -/
abbrev h2 : FVec Ideal Cert.ReferenceIdeal.S100000x64 .f32 := gcnLayer (hw2 m c) (m ((c : Thread nD τ).loc main_arg1)) (m ((c : Thread nD τ).loc main_arg8))
/-- The logits. -/
abbrev logits : FVec Ideal Cert.ReferenceIdeal.S100000x40 .f32 := readOut (h2 m c) (m ((c : Thread nD τ).loc main_arg9)) (biasRow40 (m ((c : Thread nD τ).loc main_arg10)))

theorem src_at_4 : W4 m ρ c (Proc.devRef .tc main_v1) = srcOf (m ((c : Thread nD τ).loc main_arg1)) := (keep_main_v1_4_1 m ρ c).trans (src_at_1 m ρ c)
theorem dst_at_4 : W4 m ρ c (Proc.devRef .tc main_v3) = dstOf (m ((c : Thread nD τ).loc main_arg1)) := (keep_main_v3_4_1 m ρ c).trans (dst_at_1 m ρ c)
theorem src_at_7 : W7 m ρ c (Proc.devRef .tc main_v1) = srcOf (m ((c : Thread nD τ).loc main_arg1)) := (keep_main_v1_7_1 m ρ c).trans (src_at_1 m ρ c)
theorem dst_at_7 : W7 m ρ c (Proc.devRef .tc main_v3) = dstOf (m ((c : Thread nD τ).loc main_arg1)) := (keep_main_v3_7_1 m ρ c).trans (dst_at_1 m ρ c)

theorem hw1_at_5 : W5 m ρ c (Proc.devRef .tc main_v6) = hw1 m c := (keep_main_v6_5_4 m ρ c).trans (hw1_at_4 m ρ c)
theorem agg1 : W5 m ρ c (Proc.devRef .tc main_v41) = aggregate (hw1 m c) (srcOf (m ((c : Thread nD τ).loc main_arg1))) (dstOf (m ((c : Thread nD τ).loc main_arg1))) :=
  (agg1_at_5 m ρ c).trans (congr3 aggregate (hw1_at_4 m ρ c) (src_at_4 m ρ c) (dst_at_4 m ρ c))
theorem self1 : W5 m ρ c (Proc.devRef .tc main_v43) = selfWeight (dstOf (m ((c : Thread nD τ).loc main_arg1))) :=
  (self1_at_5 m ρ c).trans (congrArg selfWeight (dst_at_4 m ρ c))
theorem bias1 : W5 m ρ c (Proc.devRef .tc main_v44) = biasRow64 (m ((c : Thread nD τ).loc main_arg6)) :=
  (bias1_at_5 m ρ c).trans (congrArg biasRow64 (launch_main_arg6_4 m ρ c))

/-- After the fourth launch: the first layer's output. -/
theorem h1_at_6 : W6 m ρ c (Proc.devRef .tc main_v45) = h1 m c :=
  (W6_arr m ρ c 4).trans ((conv_region3 (V5 m ρ) c).trans
    (congr4 convCombine (agg1 m ρ c) (hw1_at_5 m ρ c) (self1 m ρ c) (bias1 m ρ c)))

/-- After the fifth launch: the second layer's transformed features. -/
theorem hw2_at_7 : W7 m ρ c (Proc.devRef .tc main_v46) = hw2 m c :=
  (W7_arr m ρ c 2).trans ((dot_region4 (V6 m ρ) c).trans (congr2 timesW2 (h1_at_6 m ρ c) (launch_main_arg7_6 m ρ c)))

theorem agg2_at_8 : W8 m ρ c (Proc.devRef .tc main_v81)
    = aggregate (W7 m ρ c (Proc.devRef .tc main_v46)) (W7 m ρ c (Proc.devRef .tc main_v1)) (W7 m ρ c (Proc.devRef .tc main_v3)) := by
  show StableHlo.after hostOps5 (W7 m ρ c) (Proc.devRef .tc main_v81) = _
  dsimp only [hostOps5]
  after_results_simp
  rfl
theorem self2_at_8 : W8 m ρ c (Proc.devRef .tc main_v83) = selfWeight (W7 m ρ c (Proc.devRef .tc main_v3)) := by
  show StableHlo.after hostOps5 (W7 m ρ c) (Proc.devRef .tc main_v83) = _
  dsimp only [hostOps5]
  after_results_simp
  rfl
theorem bias2_at_8 : W8 m ρ c (Proc.devRef .tc main_v84) = biasRow64 (W7 m ρ c (Proc.devRef .tc main_arg8)) := by
  show StableHlo.after hostOps5 (W7 m ρ c) (Proc.devRef .tc main_v84) = _
  dsimp only [hostOps5]
  after_results_simp
  exact Cert.Lib.shapeCast_row_eq_broadcastInDim _ _ _

theorem hw2_at_8 : W8 m ρ c (Proc.devRef .tc main_v46) = hw2 m c := (keep_main_v46_8_7 m ρ c).trans (hw2_at_7 m ρ c)
theorem agg2 : W8 m ρ c (Proc.devRef .tc main_v81) = aggregate (hw2 m c) (srcOf (m ((c : Thread nD τ).loc main_arg1))) (dstOf (m ((c : Thread nD τ).loc main_arg1))) :=
  (agg2_at_8 m ρ c).trans (congr3 aggregate (hw2_at_7 m ρ c) (src_at_7 m ρ c) (dst_at_7 m ρ c))
theorem self2 : W8 m ρ c (Proc.devRef .tc main_v83) = selfWeight (dstOf (m ((c : Thread nD τ).loc main_arg1))) :=
  (self2_at_8 m ρ c).trans (congrArg selfWeight (dst_at_7 m ρ c))
theorem bias2 : W8 m ρ c (Proc.devRef .tc main_v84) = biasRow64 (m ((c : Thread nD τ).loc main_arg8)) :=
  (bias2_at_8 m ρ c).trans (congrArg biasRow64 (launch_main_arg8_7 m ρ c))

/-- After the sixth launch: the second layer's output. -/
theorem h2_at_9 : W9 m ρ c (Proc.devRef .tc main_v85) = h2 m c :=
  (W9_arr m ρ c 4).trans ((conv_region5 (V8 m ρ) c).trans
    (congr4 convCombine (agg2 m ρ c) (hw2_at_8 m ρ c) (self2 m ρ c) (bias2 m ρ c)))

theorem bias3_at_10 : W10 m ρ c (Proc.devRef .tc main_v86) = biasRow40 (W9 m ρ c (Proc.devRef .tc main_arg10)) := by
  show StableHlo.after hostOps6 (W9 m ρ c) (Proc.devRef .tc main_v86) = _
  dsimp only [hostOps6]
  after_results
  exact Cert.Lib.shapeCast_row_eq_broadcastInDim _ _ _

/-- After the seventh launch: the logits. -/
theorem logits_at_11 : W11 m ρ c (Proc.devRef .tc main_v87) = logits m c :=
  (W11_arr m ρ c 3).trans ((readOut_region (V10 m ρ) c).trans
    (congr3 readOut ((keep_main_v85_10_9 m ρ c).trans (h2_at_9 m ρ c)) (launch_main_arg9_10 m ρ c)
      ((bias3_at_10 m ρ c).trans (congrArg biasRow40 (launch_main_arg10_9 m ρ c)))))

/-- After the last launch: the network of the argument arrays. -/
theorem result_at_12 : W12 m ρ c (Proc.devRef .tc main_v88)
    = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (W12_arr m ρ c 1).trans ((logSoftmax_region (V11 m ρ) c).trans (congrArg logSoftmaxRows (logits_at_11 m ρ c)))

end Cert.KernelIdeal.Run

end
-- ==== Proof.LibTypedBufferCasts.lean ====
/-
  Moving a value between a tensor's type and its buffer's type is the identity.

  A function that a host program calls is printed with operations typed by the tensor each value holds; a value goes to
  its buffer and back by transport along the equation "the buffer's type is the tensor's type". Transport there and back
  is the identity, whatever the equation's proof: inside a composed term of such operations every pair cancels.
-/
import Idealize.ShloMosaic.Lib.StableHlo

noncomputable section

namespace Cert.Lib

open Idealize.ShloMosaic Idealize.ShloMosaic.StableHlo

/-- A value moved to its buffer's type and back is itself. -/
theorem ofBuf_toBuf {sig : RefSig} {T : BufTy} {Val : EltTy → Type} (x : TRef sig T) (v : T.Contents Val) :
    x.ofBuf (x.toBuf v) = v := by
  obtain ⟨r, h, _, _⟩ := x
  subst h
  rfl

/-- A buffer's contents moved to the tensor's type and back are themselves. -/
theorem toBuf_ofBuf {sig : RefSig} {T : BufTy} {Val : EltTy → Type} (x : TRef sig T) (v : x.ref.ty.Contents Val) :
    x.toBuf (x.ofBuf v) = v := by
  obtain ⟨r, h, _, _⟩ := x
  subst h
  rfl

end Cert.Lib

end
-- ==== Proof.RefValue.lean ====
/-
  The reference's result is the network of its argument arrays.

  The reference is a straight line of host operations; its result buffer ends at their composed term of the launch
  contents of the arguments, and that term is, operation by operation, the network's definition unfolded. (The
  operations of a function the reference calls are typed by the tensor they hold; moving a value between that type and
  its buffer's type is the identity, which the first lemmas say.)
-/
import proofs.«180948_j3899830305165_1_alg».proof.Proof.RefRun
import proofs.«180948_j3899830305165_1_alg».proof.Proof.GraphForms
import proofs.«180948_j3899830305165_1_alg».proof.Proof.LibTypedBufferCasts

set_option maxRecDepth 16384

noncomputable section

namespace Cert.ReferenceIdeal.RefValue

open Cert.ReferenceIdeal Cert.ReferenceIdeal.Gen Cert.ReferenceIdeal.ValueP Cert.Bridge
open Idealize.ShloMosaic Idealize.ShloMosaic.TcCoe Idealize.SL.Sem Idealize.ShloMosaic.StableHlo

theorem toBuf_main_v6 (p : main_v6.ty = (⟨S128x128, .f32⟩ : BufTy)) (q : main_v6.space ≠ .host) (r : main_v6.isScoped = false)
    (v : (⟨S128x128, .f32⟩ : BufTy).Contents (Elt Ideal)) :
    (TRef.of (T := ⟨S128x128, .f32⟩) main_v6 p q r).toBuf v = v := rfl
theorem toBuf_main_v52 (p : main_v52.ty = (⟨S100000x64, .f32⟩ : BufTy)) (q : main_v52.space ≠ .host) (r : main_v52.isScoped = false)
    (v : (⟨S100000x64, .f32⟩ : BufTy).Contents (Elt Ideal)) :
    (TRef.of (T := ⟨S100000x64, .f32⟩) main_v52 p q r).toBuf v = v := rfl
theorem toBuf_main_v97 (p : main_v97.ty = (⟨S100000x64, .f32⟩ : BufTy)) (q : main_v97.space ≠ .host) (r : main_v97.isScoped = false)
    (v : (⟨S100000x64, .f32⟩ : BufTy).Contents (Elt Ideal)) :
    (TRef.of (T := ⟨S100000x64, .f32⟩) main_v97 p q r).toBuf v = v := rfl
theorem toBuf_main_v102 (p : main_v102.ty = (⟨S100000x40, .f32⟩ : BufTy)) (q : main_v102.space ≠ .host) (r : main_v102.isScoped = false)
    (v : (⟨S100000x40, .f32⟩ : BufTy).Contents (Elt Ideal)) :
    (TRef.of (T := ⟨S100000x40, .f32⟩) main_v102 p q r).toBuf v = v := rfl
theorem ofBuf_main_v5 (p : main_v5.ty = (⟨S128x128, .f32⟩ : BufTy)) (q : main_v5.space ≠ .host) (r : main_v5.isScoped = false)
    (v : (⟨S128x128, .f32⟩ : BufTy).Contents (Elt Ideal)) :
    (TRef.of (T := ⟨S128x128, .f32⟩) main_v5 p q r).ofBuf v = v := rfl
theorem ofBuf_main_v51 (p : main_v51.ty = (⟨S100000x64, .f32⟩ : BufTy)) (q : main_v51.space ≠ .host) (r : main_v51.isScoped = false)
    (v : (⟨S100000x64, .f32⟩ : BufTy).Contents (Elt Ideal)) :
    (TRef.of (T := ⟨S100000x64, .f32⟩) main_v51 p q r).ofBuf v = v := rfl
theorem ofBuf_main_v96 (p : main_v96.ty = (⟨S100000x64, .f32⟩ : BufTy)) (q : main_v96.space ≠ .host) (r : main_v96.isScoped = false)
    (v : (⟨S100000x64, .f32⟩ : BufTy).Contents (Elt Ideal)) :
    (TRef.of (T := ⟨S100000x64, .f32⟩) main_v96 p q r).ofBuf v = v := rfl
theorem ofBuf_main_v101 (p : main_v101.ty = (⟨S100000x40, .f32⟩ : BufTy)) (q : main_v101.space ≠ .host) (r : main_v101.isScoped = false)
    (v : (⟨S100000x40, .f32⟩ : BufTy).Contents (Elt Ideal)) :
    (TRef.of (T := ⟨S100000x40, .f32⟩) main_v101 p q r).ofBuf v = v := rfl

set_option maxHeartbeats 4000000 in
/-- The fold of the reference's operations over the launch memory, read at the result, is the network. -/
theorem result_eq (m : (ℓ : Loc nD τ sig) → Buf (Elt Ideal) ℓ) (c : Dev nD) :
    after (ops (F := Ideal)) (launchContents m c) (Proc.devRef .tc main_v102)
      = network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  generalize hN : network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) = N
  after_results_simp
  simp only [Cert.Lib.ofBuf_toBuf, toBuf_main_v6, toBuf_main_v52, toBuf_main_v97, toBuf_main_v102, ofBuf_main_v5, ofBuf_main_v51, ofBuf_main_v96, ofBuf_main_v101]
  subst hN
  rfl

end Cert.ReferenceIdeal.RefValue

end
-- ==== Proof.lean ====
/-
  The proof of the certificate's claim.

  The kernel program and the reference compute one graph network: a weight table relu(w0 · E + b0), the features times
  it, two graph-convolution layers relu((aggregate + r² ⊙ h·W) + b) and a row-wise log-softmax of a linear read-out.
  The kernel program tiles every dense product and every row-wise step over 5000-row blocks of the 100000 nodes and
  rounds the products' operands to bf16; over the extended reals rounding is the identity and each tiled launch leaves,
  block by block, the reference's whole-array layer of what it found. The gathers and scatter-sums over the edge list
  are the same host operations in both programs and are never opened. So both result buffers end at the same function
  of the argument arrays; no algebraic law between different groupings is used, and the precondition is not needed.

  The three frames are the generated ones (the reference's from its run); the kernel's idealization rewrote nothing.
-/
import proofs.«180948_j3899830305165_1_alg».proof.Defs
import proofs.«180948_j3899830305165_1_alg».proof.Proof.Gen.Kernel
import proofs.«180948_j3899830305165_1_alg».proof.Proof.Gen.Kernel.Skeleton
import proofs.«180948_j3899830305165_1_alg».proof.Proof.Gen.Kernel.Launch
import proofs.«180948_j3899830305165_1_alg».proof.Proof.Gen.Kernel.Points
import proofs.«180948_j3899830305165_1_alg».proof.Proof.Gen.Kernel.Frame
import proofs.«180948_j3899830305165_1_alg».proof.Proof.Gen.KernelIdeal
import proofs.«180948_j3899830305165_1_alg».proof.Proof.Gen.KernelIdeal.Skeleton
import proofs.«180948_j3899830305165_1_alg».proof.Proof.Gen.KernelIdeal.Launch
import proofs.«180948_j3899830305165_1_alg».proof.Proof.Gen.KernelIdeal.Points
import proofs.«180948_j3899830305165_1_alg».proof.Proof.Gen.KernelIdeal.Frame
import proofs.«180948_j3899830305165_1_alg».proof.Proof.Gen.ReferenceIdeal
import proofs.«180948_j3899830305165_1_alg».proof.Proof.Gen.Pre_finite_inputs
import proofs.«180948_j3899830305165_1_alg».proof.Proof.KernelRun
import proofs.«180948_j3899830305165_1_alg».proof.Proof.KernelValue
import proofs.«180948_j3899830305165_1_alg».proof.Proof.RefRun
import proofs.«180948_j3899830305165_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both programs' result buffers end at the network of the (agreeing) argument arrays. -/
theorem algebraic : Cert.algebraic_KernelIdeal_ReferenceIdeal := by
  intro m ρ m' ρ' _ hagree
  refine ⟨fun c => Cert.Bridge.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun _ h c => ⟨(h c).1.trans (Cert.KernelIdeal.Run.result_at_12 m ρ c), (h c).2⟩)
      (Cert.KernelIdeal.Run.run_result (F := Ideal) m ρ)
  · refine (θ_run Cert.ReferenceIdeal.defs _ _).mono (fun _ h c => ⟨(h c).1.trans ?_, (h c).2⟩)
      (Cert.ReferenceIdeal.ValueP.run (F := Ideal) m' ρ')
    obtain ⟨h0, h1, h2, h3, h4, h5, h6, h7, h8, h9, h10⟩ := hagree c
    rw [Cert.ReferenceIdeal.RefValue.result_eq m' c, h0, h1, h2, h3, h4, h5, h6, h7, h8, h9, h10]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
